-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x32x32 : Shape := ⟨4, ![32, 256, 32, 32]⟩
abbrev S16x256 : Shape := ⟨2, ![16, 256]⟩
abbrev S256x16 : Shape := ⟨2, ![256, 16]⟩
abbrev S_ : Shape := ⟨0, ![]⟩

class Facts : Prop where
  bcast_S_S32x256x32x32 : S_.BroadcastsInDim S32x256x32x32 (![] : Fin 0 → Fin S32x256x32x32.rank)
  reducesTo_S32x256x32x32_S_d0_1_2_3 : S32x256x32x32.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S32x256x32x32 .f32) (main_arg1 : FVec F S16x256 .f32) (main_arg2 : FVec F S256x16 .f32) : IVec S_ 1 :=
  let main_v0 : FVec F S32x256x32x32 .f32 := Host.absf main_arg0
  let main_cst : FVec F S_ .f32 := constant S_ .f32 0x7F800000#32
  let main_v1 : FVec F S32x256x32x32 .f32 := broadcastInDim S32x256x32x32 ![] bcast_S_S32x256x32x32 main_cst
  let main_v2 : IVec S32x256x32x32 1 := cmpf .olt main_v0 main_v1
  let main_c : IVec S_ 1 := constantI S_ 1 1#1
  let main_v3 : IVec S_ 1 := (fun x v => Host.reduce IntOp.andi x v reducesTo_S32x256x32x32_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  main_v13
-- ==== Kernel.lean ====
abbrev S32x256x32x32 : Shape := ⟨4, ![32, 256, 32, 32]⟩
abbrev S16x256 : Shape := ⟨2, ![16, 256]⟩
abbrev S256x16 : Shape := ⟨2, ![256, 16]⟩
abbrev S32x256x1024 : Shape := ⟨3, ![32, 256, 1024]⟩
abbrev S32x256x1 : Shape := ⟨3, ![32, 256, 1]⟩
abbrev S8x256x512 : Shape := ⟨3, ![8, 256, 512]⟩
abbrev S8x256x1 : Shape := ⟨3, ![8, 256, 1]⟩
abbrev S8x256 : Shape := ⟨2, ![8, 256]⟩
abbrev S32x256 : Shape := ⟨2, ![32, 256]⟩
abbrev S64x256 : Shape := ⟨2, ![64, 256]⟩
abbrev S64x16 : Shape := ⟨2, ![64, 16]⟩
abbrev S32x256x1x1 : Shape := ⟨4, ![32, 256, 1, 1]⟩

abbrev nBuf : Space → Nat
  | .hbm => 10
  | .vmem => 13
  | .smem => 0
  | _ => 0

abbrev bufTy : (tb : Table) → Fin (tcTables nBuf tb) → BufTy
  | .hbm, ⟨0, _⟩ => ⟨S32x256x32x32, .f32⟩
  | .hbm, ⟨1, _⟩ => ⟨S16x256, .f32⟩
  | .hbm, ⟨2, _⟩ => ⟨S256x16, .f32⟩
  | .hbm, ⟨3, _⟩ => ⟨S32x256x1024, .f32⟩
  | .hbm, ⟨4, _⟩ => ⟨S32x256x1, .f32⟩
  | .hbm, ⟨5, _⟩ => ⟨S32x256x1, .f32⟩
  | .hbm, ⟨6, _⟩ => ⟨S32x256, .f32⟩
  | .hbm, ⟨7, _⟩ => ⟨S32x256, .f32⟩
  | .hbm, ⟨8, _⟩ => ⟨S32x256, .f32⟩
  | .hbm, ⟨9, _⟩ => ⟨S32x256x1x1, .f32⟩
  | .local _ .vmem, ⟨0, _⟩ => ⟨S8x256x512, .f32⟩
  | .local _ .vmem, ⟨1, _⟩ => ⟨S8x256x512, .f32⟩
  | .local _ .vmem, ⟨2, _⟩ => ⟨S8x256x512, .f32⟩
  | .local _ .vmem, ⟨3, _⟩ => ⟨S8x256x512, .f32⟩
  | .local _ .vmem, ⟨4, _⟩ => ⟨S8x256x1, .f32⟩
  | .local _ .vmem, ⟨5, _⟩ => ⟨S8x256x1, .f32⟩
  | .local _ .vmem, ⟨6, _⟩ => ⟨S8x256x1, .f32⟩
  | .local _ .vmem, ⟨7, _⟩ => ⟨S8x256x1, .f32⟩
  | .local _ .vmem, ⟨8, _⟩ => ⟨S32x256, .f32⟩
  | .local _ .vmem, ⟨9, _⟩ => ⟨S32x256, .f32⟩
  | .local _ .vmem, ⟨10, _⟩ => ⟨S16x256, .f32⟩
  | .local _ .vmem, ⟨11, _⟩ => ⟨S256x16, .f32⟩
  | .local _ .vmem, ⟨12, _⟩ => ⟨S32x256, .f32⟩
  | _, _ => ⟨S32x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

abbrev stage1_0 : Fin 1 → Memref sig .tc .vmem S32x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S32x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

class Facts₀ : Prop where
  shapeCasts_S32x256x32x32_S32x256x1024 : S32x256x32x32.ShapeCasts S32x256x1024
  inb_S8x256x512_S8x256x512_0_0_0 : ∀ a, (![0, 0, 0] : Fin 3 → Nat) a + S8x256x512.size a ≤ S8x256x512.size a
  h_S8x256x512 : 0 < S8x256x512.numel
  shapeCasts_S8x256x512_S8x256x512 : S8x256x512.ShapeCasts S8x256x512
  reduces_S8x256x512_S8x256 : S8x256x512.Reduces [2] S8x256
  shapeCasts_S8x256_S8x256x1 : S8x256.ShapeCasts S8x256x1
  inb_S8x256x1_S8x256x1_0_0_0 : ∀ a, (![0, 0, 0] : Fin 3 → Nat) a + S8x256x1.size a ≤ S8x256x1.size a
  h_S8x256x1 : 0 < S8x256x1.numel
  shapeCasts_S32x256x1_S32x256 : S32x256x1.ShapeCasts S32x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  concatenates_S32x256_S32x256_S64x256_d0 : Shape.Concatenates [S32x256, S32x256] S64x256 0
  inb_S16x256_S16x256_0_0 : ∀ a, (![0, 0] : Fin 2 → Nat) a + S16x256.size a ≤ S16x256.size a
  h_S16x256 : 0 < S16x256.numel
  inb_S256x16_S256x16_0_0 : ∀ a, (![0, 0] : Fin 2 → Nat) a + S256x16.size a ≤ S256x16.size a
  h_S256x16 : 0 < S256x16.numel
  slices_S64x256_o0_0_S32x256 : S64x256.Slices ![0, 0] S32x256
  slices_S64x256_o32_0_S32x256 : S64x256.Slices ![32, 0] S32x256
  shapeCasts_S32x256_S32x256x1x1 : S32x256.ShapeCasts S32x256x1x1
  dot_S64x256_S16x256_S64x16_1_1_0_0_n_n_wf : DotDims.WF S64x256 S16x256 S64x16 [1] [1] [0] [0] [] []
  dot_S64x16_S256x16_S64x256_1_1_0_0_n_n_wf : DotDims.WF S64x16 S256x16 S64x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S32x256x1024.size a
  hwx0_0 : ∀ i : grid0.Coords, EltTy.bits .f32 = 32 ∨ (Rect.block (s := S32x256x1024) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S32x256x1024.size a
  hwx0_1 : ∀ i : grid0.Coords, EltTy.bits .f32 = 32 ∨ (Rect.block (s := S32x256x1024) S8x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x1.size a ≤ S32x256x1.size a
  hwx0_2 : ∀ i : grid0.Coords, EltTy.bits .f32 = 32 ∨ (Rect.block (s := S32x256x1) S8x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x1.size a ≤ S32x256x1.size a
  hwx0_3 : ∀ i : grid0.Coords, EltTy.bits .f32 = 32 ∨ (Rect.block (s := S32x256x1) S8x256x1.size (cc0_transform_3 i) (hinb0_3 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole

variable [Facts₀]

def dot_S64x256_S16x256_S64x16_1_1_0_0_n_n : DotDims S64x256 S16x256 S64x16 where
  lhsContracting := [1]
  rhsContracting := [1]
  lhsNonContracting := [0]
  rhsNonContracting := [0]
  lhsBatch := []
  rhsBatch := []
  wf := dot_S64x256_S16x256_S64x16_1_1_0_0_n_n_wf
def dot_S64x16_S256x16_S64x256_1_1_0_0_n_n : DotDims S64x16 S256x16 S64x256 where
  lhsContracting := [1]
  rhsContracting := [1]
  lhsNonContracting := [0]
  rhsNonContracting := [0]
  lhsBatch := []
  rhsBatch := []
  wf := dot_S64x16_S256x16_S64x256_1_1_0_0_n_n_wf

abbrev win0_0 : Pipeline.Window sig grid0 :=
  Pipeline.Window.ofSpec (Memref.whole main_v0) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S8x256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S8x256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.whole (Memref.whole main_v2) false false (stage1_0 0) (sem1_0 0) (Memref.isWhole_whole _) (hstage1_0 0)

abbrev win1_1 : Pipeline.Window sig grid1 :=
  Pipeline.Window.whole (Memref.whole main_v3) false false (stage1_1 0) (sem1_1 0) (Memref.isWhole_whole _) (hstage1_1 0)

abbrev win1_2 : Pipeline.Window sig grid1 :=
  Pipeline.Window.whole (Memref.whole main_arg1) false false (stage1_2 0) (sem1_2 0) (Memref.isWhole_whole _) (hstage1_2 0)

abbrev win1_3 : Pipeline.Window sig grid1 :=
  Pipeline.Window.whole (Memref.whole main_arg2) false false (stage1_3 0) (sem1_3 0) (Memref.isWhole_whole _) (hstage1_3 0)

abbrev win1_4 : Pipeline.Window sig grid1 :=
  Pipeline.Window.whole (Memref.whole main_v4) true false (stage1_4 0) (sem1_4 0) (Memref.isWhole_whole _) (hstage1_4 0)

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32x256x32x32 : Shape := ⟨4, ![32, 256, 32, 32]⟩
abbrev S16x256 : Shape := ⟨2, ![16, 256]⟩
abbrev S256x16 : Shape := ⟨2, ![256, 16]⟩
abbrev S32x256x1024 : Shape := ⟨3, ![32, 256, 1024]⟩
abbrev S32x256x1 : Shape := ⟨3, ![32, 256, 1]⟩
abbrev S1x256x1024 : Shape := ⟨3, ![1, 256, 1024]⟩
abbrev S1x256x1 : Shape := ⟨3, ![1, 256, 1]⟩
abbrev S256x1 : Shape := ⟨2, ![256, 1]⟩
abbrev S256x1024 : Shape := ⟨2, ![256, 1024]⟩
abbrev S256 : Shape := ⟨1, ![256]⟩
abbrev S256x2 : Shape := ⟨2, ![256, 2]⟩
abbrev S16x2 : Shape := ⟨2, ![16, 2]⟩
abbrev S32x256x1x1 : Shape := ⟨4, ![32, 256, 1, 1]⟩

abbrev nBuf : Space → Nat
  | .hbm => 6
  | .vmem => 8
  | .smem => 0
  | _ => 0

abbrev bufTy : (tb : Table) → Fin (tcTables nBuf tb) → BufTy
  | .hbm, ⟨0, _⟩ => ⟨S32x256x32x32, .f32⟩
  | .hbm, ⟨1, _⟩ => ⟨S16x256, .f32⟩
  | .hbm, ⟨2, _⟩ => ⟨S256x16, .f32⟩
  | .hbm, ⟨3, _⟩ => ⟨S32x256x1024, .f32⟩
  | .hbm, ⟨4, _⟩ => ⟨S32x256x1, .f32⟩
  | .hbm, ⟨5, _⟩ => ⟨S32x256x1x1, .f32⟩
  | .local _ .vmem, ⟨0, _⟩ => ⟨S1x256x1024, .f32⟩
  | .local _ .vmem, ⟨1, _⟩ => ⟨S1x256x1024, .f32⟩
  | .local _ .vmem, ⟨2, _⟩ => ⟨S16x256, .f32⟩
  | .local _ .vmem, ⟨3, _⟩ => ⟨S256x16, .f32⟩
  | .local _ .vmem, ⟨4, _⟩ => ⟨S1x256x1, .f32⟩
  | .local _ .vmem, ⟨5, _⟩ => ⟨S1x256x1, .f32⟩
  | .local _ .vmem, ⟨6, _⟩ => ⟨S256x1, .f32⟩
  | .local _ .vmem, ⟨7, _⟩ => ⟨S256x1, .f32⟩
  | _, _ => ⟨S32x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_12 : BitVec 32 := 0#32
  let v19 : BitVec 1 := Scalar.cmpi .eq arg1 c0_i32_12
  let v20 : BitVec 32 := Scalar.extui v19
  let c0_i32_13 : BitVec 32 := 0#32
  let v21 : BitVec 1 := Scalar.cmpi .ne v20 c0_i32_13
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S32x256x32x32_S32x256x1024 : S32x256x32x32.ShapeCasts S32x256x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  inb_S16x256_S16x256_0_0 : ∀ a, (![0, 0] : Fin 2 → Nat) a + S16x256.size a ≤ S16x256.size a
  h_S16x256 : 0 < S16x256.numel
  inb_S256x16_S256x16_0_0 : ∀ a, (![0, 0] : Fin 2 → Nat) a + S256x16.size a ≤ S256x16.size a
  h_S256x16 : 0 < S256x16.numel
  iota_S256x2_d1_w32 : S256x2.Iotas .tc 32 [1]
  broadcasts_S256x1_S256x2 : S256x1.Broadcasts S256x2
  reduces_S256x2_S256 : S256x2.Reduces [1] S256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  shapeCasts_S32x256x1_S32x256x1x1 : S32x256x1.ShapeCasts S32x256x1x1
  dot_S16x256_S256x2_S16x2_1_0_0_1_n_n_wf : DotDims.WF S16x256 S256x2 S16x2 [1] [0] [0] [1] [] []
  dot_S256x16_S16x2_S256x2_1_0_0_1_n_n_wf : DotDims.WF S256x16 S16x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x256x1024.size a
  hwx0_0 : ∀ i : grid0.Coords, EltTy.bits .f32 = 32 ∨ (Rect.block (s := S32x256x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S256x16.size a
  hwx0_2 : ∀ i : grid0.Coords, EltTy.bits .f32 = 32 ∨ (Rect.block (s := S256x16) S256x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S32x256x1.size a
  hwx0_3 : ∀ i : grid0.Coords, EltTy.bits .f32 = 32 ∨ (Rect.block (s := S32x256x1) S1x256x1.size (cc0_transform_3 i) (hinb0_3 i)).WholeWords (EltTy.packing .f32)

variable [Facts₀]

def dot_S16x256_S256x2_S16x2_1_0_0_1_n_n : DotDims S16x256 S256x2 S16x2 where
  lhsContracting := [1]
  rhsContracting := [0]
  lhsNonContracting := [0]
  rhsNonContracting := [1]
  lhsBatch := []
  rhsBatch := []
  wf := dot_S16x256_S256x2_S16x2_1_0_0_1_n_n_wf
def dot_S256x16_S16x2_S256x2_1_0_0_1_n_n : DotDims S256x16 S16x2 S256x2 where
  lhsContracting := [1]
  rhsContracting := [0]
  lhsNonContracting := [0]
  rhsNonContracting := [1]
  lhsBatch := []
  rhsBatch := []
  wf := dot_S256x16_S16x2_S256x2_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== Proof.K0Body.lean ====
/-
  The pooling call, one grid point at a time.

  The call walks four slabs of eight images. At a point it reads the slab's rows twice — pixels 0..511 through its
  first window and pixels 512..1023 through its second, both windows on the one reshaped input array — and writes the
  slab's [8, 256, 1] column of row sums through its third window and of row maxima through its fourth. This file states
  what the body leaves in the two output buffers as a function of the two input blocks, proves the body's triple, and
  packs the pipeline's proof data: the arrays as the call finds them, each input's buffer at its block, each output's
  at the body's result. The two input windows read one array, so each holds it at one half of the whole share.
-/
import proofs.«177346_g2000607127200456_pallasbulk_51_10_alg».proof.Proof.Gen.Kernel.Launch
import proofs.«177346_g2000607127200456_pallasbulk_51_10_alg».proof.Proof.Gen.Kernel.Skeleton
import proofs.«177346_g2000607127200456_pallasbulk_51_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's buffer holds its block at every point: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output column, as the body's accesses. -/
abbrev r0_i : Rect S8x256x512 := Rect.unit (s := S8x256x512) ![0, 0, 0] S8x256x512.size inb_S8x256x512_S8x256x512_0_0_0
abbrev r0_o : Rect S8x256x1 := Rect.unit (s := S8x256x1) ![0, 0, 0] S8x256x1.size inb_S8x256x1_S8x256x1_0_0_0

/-- The sums' buffer after the body: one store of the whole column, the sum of the two half-row sums. -/
def out0_2 (x0 x1 : Vec F S8x256x512 .f32) : Vec F S8x256x1 .f32 :=
  View.canon [⟨r0_o, k0_pay3 (View.ld x0 r0_i) (View.ld x1 r0_i)⟩]

theorem cover0_2 (p0 : Vec F S8x256x1 .f32) (y : S8x256x1.Idx) :
    ∃ pc ∈ ([⟨r0_o, p0⟩] : List (View.Piece (Elt F) S8x256x1 .f32)), y ∈ pc.1.set :=
  View.cover_of_tiled [⟨r0_o, p0⟩] S8x256x1.size (by rfl) y

/-- The maxima's buffer after the body: one store of the whole column, the larger of the two half-row maxima. -/
def out0_3 (x0 x1 : Vec F S8x256x512 .f32) : Vec F S8x256x1 .f32 :=
  View.canon [⟨r0_o, k0_pay4 (View.ld x0 r0_i) (View.ld x1 r0_i)⟩]

theorem cover0_3 (p0 : Vec F S8x256x1 .f32) (y : S8x256x1.Idx) :
    ∃ pc ∈ ([⟨r0_o, p0⟩] : List (View.Piece (Elt F) S8x256x1 .f32)), y ∈ pc.1.set :=
  View.cover_of_tiled [⟨r0_o, p0⟩] S8x256x1.size (by rfl) y

set_option maxHeartbeats 1000000 in
/-- The body on whole staging memrefs, the inputs' at `x0`, `x1` and the outputs' at anything, runs to the continuation
    holding the inputs' as they were and the outputs' at `out0_2`, `out0_3` of the inputs'. -/
theorem sound_kernel0 (c : Dev nD) (E : Set ℕ) (i : grid0.Coords) (arg1 : Memref sig .tc .vmem S8x256x512 .f32) (harg1 : arg1.IsWhole)
    (arg2 : Memref sig .tc .vmem S8x256x512 .f32) (harg2 : arg2.IsWhole) (arg3 : Memref sig .tc .vmem S8x256x1 .f32) (harg3 : arg3.IsWhole)
    (arg4 : Memref sig .tc .vmem S8x256x1 .f32) (harg4 : arg4.IsWhole)
    (x0 x1 : Vec F S8x256x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0_body i arg1 harg1 arg2 harg2 arg3 harg3 arg4 harg4) K := by
  simp only [cc0_body_eq_skeleton]; unfold cc0_body_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-- The proof data of the pooling call on core `c`: the arrays as the call finds them; after the body each input's
    buffer at its block and each output's at the body's result; the invariant the scoped rest and the generator register,
    untouched; nothing owed. The two input windows read ONE array: the first holds it at the left half of the whole
    share, the second at the right half; the outputs' arrays are held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K0Arr.lean ====
/-
  The pooling call's arrays, dealt and gathered.

  Between two items of the program a core holds each of its ten long-lived buffers whole. The pooling call reads the
  reshaped input through TWO windows, so on entry that one buffer is dealt in two halves of the whole share, one per
  window, both at the same contents; the two output arrays go to their windows whole; the seven other buffers bypass the
  call. On exit the two halves — still at the contents the call found, since an input window writes nothing back — are put
  together again, and the outputs' arrays come back at what the write-backs left.
-/
import proofs.«177346_g2000607127200456_pallasbulk_51_10_alg».proof.Proof.Gen.Kernel.Launch
import proofs.«177346_g2000607127200456_pallasbulk_51_10_alg».proof.Proof.Gen.Kernel.Skeleton
import proofs.«177346_g2000607127200456_pallasbulk_51_10_alg».proof.Proof.Gen.Kernel.Points
import proofs.«177346_g2000607127200456_pallasbulk_51_10_alg».proof.Proof.K0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq)

section Arrays0

variable (V : (c : Dev nD) → (b : Ref sig .tc) → Buf (Elt F) ((c : Thread nD τ).loc b))

/-- The shares the four windows hold their arrays at. -/
theorem share0_0 (c : Dev nD) : (dat0 V c).share 0 = fullShare.left := rfl
theorem share0_1 (c : Dev nD) : (dat0 V c).share 1 = fullShare.right := rfl
theorem share0_2 (c : Dev nD) : (dat0 V c).share 2 = fullShare := rfl
theorem share0_3 (c : Dev nD) : (dat0 V c).share 3 = fullShare := rfl

/-- The call's arrays at contents `G`, window by window: the reshaped input twice, at the two halves of the whole
    share, and the two output arrays whole. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_v0) ↦{fullShare.left} G 0) ∗ (((c : Thread nD τ).loc main_v0) ↦{fullShare.right} G 1)
          ∗ (((c : Thread nD τ).loc main_v1_0) ↦{fullShare} G 2) ∗ (((c : Thread nD τ).loc main_v1_1) ↦{fullShare} G 3)) := by
  unfold Dat.arrays
  rw [bigSep_W0, (arr_whole0 0).set_eq_univ, (arr_whole0 2).set_eq_univ, (arr_whole0 3).set_eq_univ,
    share0_0, share0_1, share0_2, share0_3]

/-- A core's ten long-lived buffers, one by one. -/
theorem unscopedBufs_eq (c : Dev nD) (W : (b : Ref sig .tc) → Buf (Elt F) ((c : Thread nD τ).loc b)) :
    (unscopedBufs c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_v0) ↦{fullShare} W main_v0)
          ∗ (((c : Thread nD τ).loc main_v1_0) ↦{fullShare} W main_v1_0) ∗ (((c : Thread nD τ).loc main_v1_1) ↦{fullShare} W main_v1_1)
          ∗ (((c : Thread nD τ).loc main_v2) ↦{fullShare} W main_v2) ∗ (((c : Thread nD τ).loc main_v3) ↦{fullShare} W main_v3)
          ∗ (((c : Thread nD τ).loc main_v4) ↦{fullShare} W main_v4) ∗ (((c : Thread nD τ).loc main_v5) ↦{fullShare} W main_v5)) := by
  unfold unscopedBufs
  exact bigSep_eq_bigSepL_of_eq [main_arg0, main_arg1, main_arg2, main_v0, main_v1_0, main_v1_1, main_v2, main_v3, main_v4, main_v5]
    (by decide) (by decide) _

/-- ENTRY: the ten buffers at contents `W` are the call's arrays at its entry contents — the reshaped input's buffer
    dealt in two halves — and the seven buffers that bypass it. -/
theorem arrays0_of_unscopedBufs (c : Dev nD) :
    (unscopedBufs c (V c) : sProp 𝕄)
      ⊢ iprop((dat0 V c).arrays ((dat0 V c).arrAt · 0) ∗ Pipeline.unscopedRest spec0 c (V c)) := by
  rw [unscopedBufs_eq, arrays0_eq, unscopedRest0_eq]
  iintro ⟨Ha0, Ha1, Ha2, Hv0, Hv10, Hv11, Hv2, Hv3, Hv4, Hv5⟩
  ihave Hh := (pointsTo_share (PosShare.mem_left_op_right fullShare)).1 $$ Hv0
  icases Hh with ⟨Hl, Hr⟩
  isplitl [Hl Hr Hv10 Hv11]
  · isplitl [Hl]; · iexact Hl
    isplitl [Hr]; · iexact Hr
    isplitl [Hv10]; · iexact Hv10
    iexact Hv11
  isplitl [Ha0]; · iexact Ha0
  isplitl [Ha1]; · iexact Ha1
  isplitl [Ha2]; · iexact Ha2
  isplitl [Hv2]; · iexact Hv2
  isplitl [Hv3]; · iexact Hv3
  isplitl [Hv4]; · iexact Hv4
  iexact Hv5

/-- EXIT: the call's arrays after all write-backs and the seven bypassing buffers are the ten buffers at any contents
    `V'` that has the two output arrays at what the write-backs left and everything else as the call found it: the
    two halves of the reshaped input's buffer, at the same contents, make it whole again. -/
theorem unscopedBufs_of_arrays0 (c : Dev nD) (V' : (b : Ref sig .tc) → Buf (Elt F) ((c : Thread nD τ).loc b))
    (h0 : V' main_v0 = V c main_v0)
    (h2 : V' main_v1_0 = (dat0 V c).arrAt 2 cfg0.N) (h3 : V' main_v1_1 = (dat0 V c).arrAt 3 cfg0.N)
    (ha0 : V' main_arg0 = V c main_arg0) (ha1 : V' main_arg1 = V c main_arg1) (ha2 : V' main_arg2 = V c main_arg2)
    (hv2 : V' main_v2 = V c main_v2) (hv3 : V' main_v3 = V c main_v3) (hv4 : V' main_v4 = V c main_v4) (hv5 : V' main_v5 = V c main_v5) :
    iprop((dat0 V c).arrays ((dat0 V c).arrAt · cfg0.N) ∗ Pipeline.unscopedRest spec0 c (V c)) ⊢ (unscopedBufs c V' : sProp 𝕄) := by
  have e0 : (dat0 V c).arrAt 0 cfg0.N = V c main_v0 := ((dat0 V c).arrAt_in 0 rfl _).trans (A_eq0 V c 0)
  have e1 : (dat0 V c).arrAt 1 cfg0.N = V c main_v0 := ((dat0 V c).arrAt_in 1 rfl _).trans (A_eq0 V c 1)
  rw [unscopedBufs_eq, arrays0_eq, unscopedRest0_eq, h0, h2, h3, ha0, ha1, ha2, hv2, hv3, hv4, hv5, e0, e1]
  iintro ⟨⟨Hl, Hr, Hv10, Hv11⟩, Ha0, Ha1, Ha2, Hv2, Hv3, Hv4, Hv5⟩
  have hjoin : iprop((((c : Thread nD τ).loc main_v0) ↦{fullShare.left} V c main_v0) ∗ (((c : Thread nD τ).loc main_v0) ↦{fullShare.right} V c main_v0))
      ⊢ ((((c : Thread nD τ).loc main_v0) ↦{fullShare} V c main_v0) : sProp 𝕄) := (pointsTo_share (PosShare.mem_left_op_right fullShare)).2
  ihave Hv0 := hjoin $$ [Hl Hr]
  · isplitl [Hl]; · iexact Hl
    iexact Hr
  isplitl [Ha0]; · iexact Ha0
  isplitl [Ha1]; · iexact Ha1
  isplitl [Ha2]; · iexact Ha2
  isplitl [Hv0]; · iexact Hv0
  isplitl [Hv10]; · iexact Hv10
  isplitl [Hv11]; · iexact Hv11
  isplitl [Hv2]; · iexact Hv2
  isplitl [Hv3]; · iexact Hv3
  isplitl [Hv4]; · iexact Hv4
  iexact Hv5

end Arrays0

end Cert.Kernel.Hand

end
-- ==== Proof.K1Body.lean ====
/-
  The gate call: one point, every block a whole array.

  The call reads the [32, 256] matrices of row sums and row maxima and the two weight matrices whole, and writes the
  [32, 256] gate matrix whole. This file states what the body leaves in the output buffer as a function of the four
  input blocks, proves the body's triple, and packs the pipeline's proof data.
-/
import proofs.«177346_g2000607127200456_pallasbulk_51_10_alg».proof.Proof.Gen.Kernel.Launch
import proofs.«177346_g2000607127200456_pallasbulk_51_10_alg».proof.Proof.Gen.Kernel.Skeleton
import proofs.«177346_g2000607127200456_pallasbulk_51_10_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at the point, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole matrices, as the body's accesses. -/
abbrev r1_p : Rect S32x256 := Rect.unit (s := S32x256) ![0, 0] S32x256.size inb_S32x256_S32x256_0_0
abbrev r1_a : Rect S16x256 := Rect.unit (s := S16x256) ![0, 0] S16x256.size inb_S16x256_S16x256_0_0
abbrev r1_b : Rect S256x16 := Rect.unit (s := S256x16) ![0, 0] S256x16.size inb_S256x16_S256x16_0_0

/-- The gate buffer after the body: one store of the whole matrix. -/
def out1_4 (x0 x1 : Vec F S32x256 .f32) (x2 : Vec F S16x256 .f32) (x3 : Vec F S256x16 .f32) : Vec F S32x256 .f32 :=
  View.canon [⟨r1_p, k1_pay1 (View.ld x0 r1_p) (View.ld x1 r1_p) (View.ld x2 r1_a) (View.ld x3 r1_b)⟩]

theorem cover1_4 (p0 : Vec F S32x256 .f32) (y : S32x256.Idx) :
    ∃ pc ∈ ([⟨r1_p, p0⟩] : List (View.Piece (Elt F) S32x256 .f32)), y ∈ pc.1.set :=
  View.cover_of_tiled [⟨r1_p, p0⟩] S32x256.size (by rfl) y

set_option maxHeartbeats 1000000 in
/-- The body on whole staging memrefs, the inputs' at `x0` … `x3` and the output's at anything, runs to the continuation
    holding the inputs' as they were and the output's at `out1_4` of the inputs'. -/
theorem sound_kernel1 (c : Dev nD) (E : Set ℕ) (arg0 : Memref sig .tc .vmem S32x256 .f32) (harg0 : arg0.IsWhole)
    (arg1 : Memref sig .tc .vmem S32x256 .f32) (harg1 : arg1.IsWhole) (arg2 : Memref sig .tc .vmem S16x256 .f32) (harg2 : arg2.IsWhole)
    (arg3 : Memref sig .tc .vmem S256x16 .f32) (harg3 : arg3.IsWhole) (arg4 : Memref sig .tc .vmem S32x256 .f32) (harg4 : arg4.IsWhole)
    (x0 x1 : Vec F S32x256 .f32) (x2 : Vec F S16x256 .f32) (x3 : Vec F S256x16 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out1_4 x0 x1 x2 x3)) -∗ K ⟨⟩))
      ⊢ wp frame (wpE (defs₀ (F := F)) Variants.none c none) E (cc1_mlp_body arg0 harg0 arg1 harg1 arg2 harg2 arg3 harg3 arg4 harg4) K := by
  simp only [cc1_mlp_body_eq_skeleton]; unfold cc1_mlp_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the gate call on core `c`: the arrays as the call finds them; after the body each input's buffer
    at its block and the output's at the body's result; the invariant the scoped rest and the generator register,
    untouched; nothing owed; every array held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
/-
  The program's run, from launch to return.

  The program is five items in a row: a reshape of the input, the pooling call, two reshapes of its results, the gate
  call, a reshape of the gate. This file names what every long-lived buffer holds at each of the six boundaries — the launch
  memory, then each item applied in turn: a reshape writes its result, a call leaves its output arrays at what its
  write-backs wrote and everything else alone — states each call as a segment entered from one boundary's contents and
  left at the next, and concludes that every execution terminates with every long-lived buffer at the last boundary's
  contents. The arguments are written by no item, so they end as launched.
-/
import proofs.«177346_g2000607127200456_pallasbulk_51_10_alg».proof.Proof.Gen.Kernel.Launch
import proofs.«177346_g2000607127200456_pallasbulk_51_10_alg».proof.Proof.Gen.Kernel.Skeleton
import proofs.«177346_g2000607127200456_pallasbulk_51_10_alg».proof.Proof.Gen.Kernel.Points
import proofs.«177346_g2000607127200456_pallasbulk_51_10_alg».proof.Proof.Gen.Kernel.Regions
import proofs.«177346_g2000607127200456_pallasbulk_51_10_alg».proof.Proof.K0Arr
import proofs.«177346_g2000607127200456_pallasbulk_51_10_alg».proof.Proof.K1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => (s₀ m ρ).mem ((c : Dev nD), b)
/-- After the input's reshape: the pooling call's entry. -/
abbrev W1 : Dev nD → Valuation τ sig (Elt F) := fun c => StableHlo.after hostOps0 (W0 m ρ c)
abbrev A1 : (c : Dev nD) → (b : Ref sig .tc) → Buf (Elt F) ((c : Thread nD τ).loc b) := fun c b => W1 m ρ c b
/-- After the pooling call: its two output arrays at what the write-backs left, every other buffer as entered. -/
def W2 (c : Dev nD) : Valuation τ sig (Elt F) :=
  Function.update (Function.update (W1 m ρ c) (Proc.devRef .tc main_v1_0) ((dat0 (A1 m ρ) c).arrAt 2 cfg0.N))
    (Proc.devRef .tc main_v1_1) ((dat0 (A1 m ρ) c).arrAt 3 cfg0.N)
theorem W2_v1_1 (c : Dev nD) : W2 m ρ c (Proc.devRef .tc main_v1_1) = (dat0 (A1 m ρ) c).arrAt 3 cfg0.N := by
  unfold W2; exact Function.update_self ..
theorem W2_v1_0 (c : Dev nD) : W2 m ρ c (Proc.devRef .tc main_v1_0) = (dat0 (A1 m ρ) c).arrAt 2 cfg0.N := by
  unfold W2
  rw [Function.update_of_ne (StableHlo.devRef_ne_of_ne (by decide) : (Proc.devRef .tc main_v1_0 : DevRef τ sig) ≠ Proc.devRef .tc main_v1_1)]
  exact Function.update_self ..
theorem W2_of_ne (c : Dev nD) (b : Ref sig .tc) (h0 : b ≠ main_v1_0) (h1 : b ≠ main_v1_1) :
    W2 m ρ c (Proc.devRef .tc b) = W1 m ρ c (Proc.devRef .tc b) := by
  unfold W2
  rw [Function.update_of_ne (StableHlo.devRef_ne_of_ne h1 : (Proc.devRef .tc b : DevRef τ sig) ≠ Proc.devRef .tc main_v1_1),
    Function.update_of_ne (StableHlo.devRef_ne_of_ne h0 : (Proc.devRef .tc b : DevRef τ sig) ≠ Proc.devRef .tc main_v1_0)]
abbrev A2 : (c : Dev nD) → (b : Ref sig .tc) → Buf (Elt F) ((c : Thread nD τ).loc b) := fun c b => W2 m ρ c b

/-- After the two reshapes of the pooled columns: the gate call's entry. -/
abbrev W3 : Dev nD → Valuation τ sig (Elt F) := fun c => StableHlo.after hostOps1 (W2 m ρ c)
abbrev A3 : (c : Dev nD) → (b : Ref sig .tc) → Buf (Elt F) ((c : Thread nD τ).loc b) := fun c b => W3 m ρ c b
/-- After the gate call: its arrays at what the pipeline leaves, every other buffer as entered. -/
def W4 (c : Dev nD) : Valuation τ sig (Elt F) :=
  Pipeline.withArrays spec1 c (W3 m ρ c) fun w => (dat1 (A3 m ρ) c).arrAt w cfg1.N
theorem W4_arr (c : Dev nD) (w : Fin cfg1.W) :
    W4 m ρ c (Proc.devRef .tc (Pipeline.arrRef spec1 w)) = (dat1 (A3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev A4 : (c : Dev nD) → (b : Ref sig .tc) → Buf (Elt F) ((c : Thread nD τ).loc b) := fun c b => W4 m ρ c b
theorem hF1 (c : Dev nD) (w : Fin cfg1.W) : (dat1 (A3 m ρ) c).arrAt w cfg1.N = A4 m ρ c (Pipeline.arrRef spec1 w) :=
  (W4_arr m ρ c w).symm
theorem hrest1 (c : Dev nD) : ∀ b, b ∉ Finset.univ.image (Pipeline.arrRef spec1) → A4 m ρ c b = A3 m ρ c b :=
  fun b hb => W4_of_ne m ρ c b fun w e => hb (Finset.mem_image.mpr ⟨w, Finset.mem_univ _, e⟩)
/-- After the gate's reshape: the return. -/
abbrev W5 : Dev nD → Valuation τ sig (Elt F) := fun c => StableHlo.after hostOps2 (W4 m ρ c)

/-! ## No item writes an argument -/

theorem W5_arg (c : Dev nD) (r : Ref sig .tc) (h0 : r ∉ hostOps0_W) (h1 : r ∉ hostOps1_W) (h2 : r ∉ hostOps2_W)
    (ha : r ≠ main_v1_0) (hb : r ≠ main_v1_1) (hc : ∀ w, Pipeline.arrRef spec1 w ≠ r ∨ (cfg1.win w).isOut = false) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := by
          by_cases hw : ∃ w, Pipeline.arrRef spec1 w = r
          · obtain ⟨w, rfl⟩ := hw
            have hin : (cfg1.win w).isOut = false := (hc w).resolve_left (fun h => h rfl)
            exact (W4_arr m ρ c w).trans (((dat1 (A3 m ρ) c).arrAt_in w hin _).trans (A_eq1 (A3 m ρ) c w))
          · exact W4_of_ne m ρ c r fun w e => hw ⟨w, e⟩
    _ = W2 m ρ c (Proc.devRef .tc r) := StableHlo.after_of_writes_sub hostOps1 _ hostOps1_writes h1
    _ = W1 m ρ c (Proc.devRef .tc r) := W2_of_ne m ρ c r ha hb
    _ = W0 m ρ c (Proc.devRef .tc r) := StableHlo.after_of_writes_sub hostOps0 _ hostOps0_writes h0
    _ = m ((c : Thread nD τ).loc r) := rfl

theorem W5_main_arg0 (c : Dev nD) : W5 m ρ c (Proc.devRef .tc main_arg0) = m ((c : Thread nD τ).loc main_arg0) :=
  W5_arg m ρ c main_arg0 (by decide) (by decide) (by decide) (by decide) (by decide) (by decide)
theorem W5_main_arg1 (c : Dev nD) : W5 m ρ c (Proc.devRef .tc main_arg1) = m ((c : Thread nD τ).loc main_arg1) :=
  W5_arg m ρ c main_arg1 (by decide) (by decide) (by decide) (by decide) (by decide) (by decide)
theorem W5_main_arg2 (c : Dev nD) : W5 m ρ c (Proc.devRef .tc main_arg2) = m ((c : Thread nD τ).loc main_arg2) :=
  W5_arg m ρ c main_arg2 (by decide) (by decide) (by decide) (by decide) (by decide) (by decide)

/-! ## The proof data family and the thread state -/

/-- Both calls' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (A1 m ρ) c
  | ⟨1, _⟩ => fun c => dat1 (A3 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of host operations as a segment over the long-lived buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every long-lived buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The calls as segments -/

set_option backward.isDefEq.respectTransparency.types false in
/-- The pooling call: entered from the contents after the input's reshape, left at those with its two output arrays
    updated. On entry the reshaped input's buffer is dealt in two halves to the two windows that read it; on exit the
    halves are joined again. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (A1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (A1 m ρ c)
  hentry c := by
    rw [Pipeline.ownSems0_none]
    have hsplit := arrays0_of_unscopedBufs (A1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 (A1 m ρ) c (A2 m ρ c)
      (W2_of_ne m ρ c main_v0 (by decide) (by decide)) (W2_v1_0 m ρ c) (W2_v1_1 m ρ c)
      (W2_of_ne m ρ c main_arg0 (by decide) (by decide)) (W2_of_ne m ρ c main_arg1 (by decide) (by decide))
      (W2_of_ne m ρ c main_arg2 (by decide) (by decide)) (W2_of_ne m ρ c main_v2 (by decide) (by decide))
      (W2_of_ne m ρ c main_v3 (by decide) (by decide)) (W2_of_ne m ρ c main_v4 (by decide) (by decide))
      (W2_of_ne m ρ c main_v5 (by decide) (by decide))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The gate call: entered from the contents after the pooled columns' reshapes, left at those with its arrays at what
    the pipeline leaves. Its arrays are five distinct buffers, split out of the long-lived buffers and put back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (A3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (A3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (A3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (A3 m ρ c) (A4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every long-lived buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.Kernel.Hand

end
-- ==== Proof.KI0Body.lean ====
/-
  The pooling call, one grid point at a time.

  The call walks four slabs of eight images. At a point it reads the slab's rows twice — pixels 0..511 through its
  first window and pixels 512..1023 through its second, both windows on the one reshaped input array — and writes the
  slab's [8, 256, 1] column of row sums through its third window and of row maxima through its fourth. This file states
  what the body leaves in the two output buffers as a function of the two input blocks, proves the body's triple, and
  packs the pipeline's proof data: the arrays as the call finds them, each input's buffer at its block, each output's
  at the body's result. The two input windows read one array, so each holds it at one half of the whole share.
-/
import proofs.«177346_g2000607127200456_pallasbulk_51_10_alg».proof.Proof.Gen.KernelIdeal.Launch
import proofs.«177346_g2000607127200456_pallasbulk_51_10_alg».proof.Proof.Gen.KernelIdeal.Skeleton
import proofs.«177346_g2000607127200456_pallasbulk_51_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's buffer holds its block at every point: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole input block and the whole output column, as the body's accesses. -/
abbrev r0_i : Rect S8x256x512 := Rect.unit (s := S8x256x512) ![0, 0, 0] S8x256x512.size inb_S8x256x512_S8x256x512_0_0_0
abbrev r0_o : Rect S8x256x1 := Rect.unit (s := S8x256x1) ![0, 0, 0] S8x256x1.size inb_S8x256x1_S8x256x1_0_0_0

/-- The sums' buffer after the body: one store of the whole column, the sum of the two half-row sums. -/
def out0_2 (x0 x1 : Vec F S8x256x512 .f32) : Vec F S8x256x1 .f32 :=
  View.canon [⟨r0_o, k0_pay3 (View.ld x0 r0_i) (View.ld x1 r0_i)⟩]

theorem cover0_2 (p0 : Vec F S8x256x1 .f32) (y : S8x256x1.Idx) :
    ∃ pc ∈ ([⟨r0_o, p0⟩] : List (View.Piece (Elt F) S8x256x1 .f32)), y ∈ pc.1.set :=
  View.cover_of_tiled [⟨r0_o, p0⟩] S8x256x1.size (by rfl) y

/-- The maxima's buffer after the body: one store of the whole column, the larger of the two half-row maxima. -/
def out0_3 (x0 x1 : Vec F S8x256x512 .f32) : Vec F S8x256x1 .f32 :=
  View.canon [⟨r0_o, k0_pay4 (View.ld x0 r0_i) (View.ld x1 r0_i)⟩]

theorem cover0_3 (p0 : Vec F S8x256x1 .f32) (y : S8x256x1.Idx) :
    ∃ pc ∈ ([⟨r0_o, p0⟩] : List (View.Piece (Elt F) S8x256x1 .f32)), y ∈ pc.1.set :=
  View.cover_of_tiled [⟨r0_o, p0⟩] S8x256x1.size (by rfl) y

set_option maxHeartbeats 1000000 in
/-- The body on whole staging memrefs, the inputs' at `x0`, `x1` and the outputs' at anything, runs to the continuation
    holding the inputs' as they were and the outputs' at `out0_2`, `out0_3` of the inputs'. -/
theorem sound_kernel0 (c : Dev nD) (E : Set ℕ) (i : grid0.Coords) (arg1 : Memref sig .tc .vmem S8x256x512 .f32) (harg1 : arg1.IsWhole)
    (arg2 : Memref sig .tc .vmem S8x256x512 .f32) (harg2 : arg2.IsWhole) (arg3 : Memref sig .tc .vmem S8x256x1 .f32) (harg3 : arg3.IsWhole)
    (arg4 : Memref sig .tc .vmem S8x256x1 .f32) (harg4 : arg4.IsWhole)
    (x0 x1 : Vec F S8x256x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0_body i arg1 harg1 arg2 harg2 arg3 harg3 arg4 harg4) K := by
  simp only [cc0_body_eq_skeleton]; unfold cc0_body_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-- The proof data of the pooling call on core `c`: the arrays as the call finds them; after the body each input's
    buffer at its block and each output's at the body's result; the invariant the scoped rest and the generator register,
    untouched; nothing owed. The two input windows read ONE array: the first holds it at the left half of the whole
    share, the second at the right half; the outputs' arrays are held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI0Arr.lean ====
/-
  The pooling call's arrays, dealt and gathered.

  Between two items of the program a core holds each of its ten long-lived buffers whole. The pooling call reads the
  reshaped input through TWO windows, so on entry that one buffer is dealt in two halves of the whole share, one per
  window, both at the same contents; the two output arrays go to their windows whole; the seven other buffers bypass the
  call. On exit the two halves — still at the contents the call found, since an input window writes nothing back — are put
  together again, and the outputs' arrays come back at what the write-backs left.
-/
import proofs.«177346_g2000607127200456_pallasbulk_51_10_alg».proof.Proof.Gen.KernelIdeal.Launch
import proofs.«177346_g2000607127200456_pallasbulk_51_10_alg».proof.Proof.Gen.KernelIdeal.Skeleton
import proofs.«177346_g2000607127200456_pallasbulk_51_10_alg».proof.Proof.Gen.KernelIdeal.Points
import proofs.«177346_g2000607127200456_pallasbulk_51_10_alg».proof.Proof.KI0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq)

section Arrays0

variable (V : (c : Dev nD) → (b : Ref sig .tc) → Buf (Elt F) ((c : Thread nD τ).loc b))

/-- The shares the four windows hold their arrays at. -/
theorem share0_0 (c : Dev nD) : (dat0 V c).share 0 = fullShare.left := rfl
theorem share0_1 (c : Dev nD) : (dat0 V c).share 1 = fullShare.right := rfl
theorem share0_2 (c : Dev nD) : (dat0 V c).share 2 = fullShare := rfl
theorem share0_3 (c : Dev nD) : (dat0 V c).share 3 = fullShare := rfl

/-- The call's arrays at contents `G`, window by window: the reshaped input twice, at the two halves of the whole
    share, and the two output arrays whole. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_v0) ↦{fullShare.left} G 0) ∗ (((c : Thread nD τ).loc main_v0) ↦{fullShare.right} G 1)
          ∗ (((c : Thread nD τ).loc main_v1_0) ↦{fullShare} G 2) ∗ (((c : Thread nD τ).loc main_v1_1) ↦{fullShare} G 3)) := by
  unfold Dat.arrays
  rw [bigSep_W0, (arr_whole0 0).set_eq_univ, (arr_whole0 2).set_eq_univ, (arr_whole0 3).set_eq_univ,
    share0_0, share0_1, share0_2, share0_3]

/-- A core's ten long-lived buffers, one by one. -/
theorem unscopedBufs_eq (c : Dev nD) (W : (b : Ref sig .tc) → Buf (Elt F) ((c : Thread nD τ).loc b)) :
    (unscopedBufs c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_v0) ↦{fullShare} W main_v0)
          ∗ (((c : Thread nD τ).loc main_v1_0) ↦{fullShare} W main_v1_0) ∗ (((c : Thread nD τ).loc main_v1_1) ↦{fullShare} W main_v1_1)
          ∗ (((c : Thread nD τ).loc main_v2) ↦{fullShare} W main_v2) ∗ (((c : Thread nD τ).loc main_v3) ↦{fullShare} W main_v3)
          ∗ (((c : Thread nD τ).loc main_v4) ↦{fullShare} W main_v4) ∗ (((c : Thread nD τ).loc main_v5) ↦{fullShare} W main_v5)) := by
  unfold unscopedBufs
  exact bigSep_eq_bigSepL_of_eq [main_arg0, main_arg1, main_arg2, main_v0, main_v1_0, main_v1_1, main_v2, main_v3, main_v4, main_v5]
    (by decide) (by decide) _

/-- ENTRY: the ten buffers at contents `W` are the call's arrays at its entry contents — the reshaped input's buffer
    dealt in two halves — and the seven buffers that bypass it. -/
theorem arrays0_of_unscopedBufs (c : Dev nD) :
    (unscopedBufs c (V c) : sProp 𝕄)
      ⊢ iprop((dat0 V c).arrays ((dat0 V c).arrAt · 0) ∗ Pipeline.unscopedRest spec0 c (V c)) := by
  rw [unscopedBufs_eq, arrays0_eq, unscopedRest0_eq]
  iintro ⟨Ha0, Ha1, Ha2, Hv0, Hv10, Hv11, Hv2, Hv3, Hv4, Hv5⟩
  ihave Hh := (pointsTo_share (PosShare.mem_left_op_right fullShare)).1 $$ Hv0
  icases Hh with ⟨Hl, Hr⟩
  isplitl [Hl Hr Hv10 Hv11]
  · isplitl [Hl]; · iexact Hl
    isplitl [Hr]; · iexact Hr
    isplitl [Hv10]; · iexact Hv10
    iexact Hv11
  isplitl [Ha0]; · iexact Ha0
  isplitl [Ha1]; · iexact Ha1
  isplitl [Ha2]; · iexact Ha2
  isplitl [Hv2]; · iexact Hv2
  isplitl [Hv3]; · iexact Hv3
  isplitl [Hv4]; · iexact Hv4
  iexact Hv5

/-- EXIT: the call's arrays after all write-backs and the seven bypassing buffers are the ten buffers at any contents
    `V'` that has the two output arrays at what the write-backs left and everything else as the call found it: the
    two halves of the reshaped input's buffer, at the same contents, make it whole again. -/
theorem unscopedBufs_of_arrays0 (c : Dev nD) (V' : (b : Ref sig .tc) → Buf (Elt F) ((c : Thread nD τ).loc b))
    (h0 : V' main_v0 = V c main_v0)
    (h2 : V' main_v1_0 = (dat0 V c).arrAt 2 cfg0.N) (h3 : V' main_v1_1 = (dat0 V c).arrAt 3 cfg0.N)
    (ha0 : V' main_arg0 = V c main_arg0) (ha1 : V' main_arg1 = V c main_arg1) (ha2 : V' main_arg2 = V c main_arg2)
    (hv2 : V' main_v2 = V c main_v2) (hv3 : V' main_v3 = V c main_v3) (hv4 : V' main_v4 = V c main_v4) (hv5 : V' main_v5 = V c main_v5) :
    iprop((dat0 V c).arrays ((dat0 V c).arrAt · cfg0.N) ∗ Pipeline.unscopedRest spec0 c (V c)) ⊢ (unscopedBufs c V' : sProp 𝕄) := by
  have e0 : (dat0 V c).arrAt 0 cfg0.N = V c main_v0 := ((dat0 V c).arrAt_in 0 rfl _).trans (A_eq0 V c 0)
  have e1 : (dat0 V c).arrAt 1 cfg0.N = V c main_v0 := ((dat0 V c).arrAt_in 1 rfl _).trans (A_eq0 V c 1)
  rw [unscopedBufs_eq, arrays0_eq, unscopedRest0_eq, h0, h2, h3, ha0, ha1, ha2, hv2, hv3, hv4, hv5, e0, e1]
  iintro ⟨⟨Hl, Hr, Hv10, Hv11⟩, Ha0, Ha1, Ha2, Hv2, Hv3, Hv4, Hv5⟩
  have hjoin : iprop((((c : Thread nD τ).loc main_v0) ↦{fullShare.left} V c main_v0) ∗ (((c : Thread nD τ).loc main_v0) ↦{fullShare.right} V c main_v0))
      ⊢ ((((c : Thread nD τ).loc main_v0) ↦{fullShare} V c main_v0) : sProp 𝕄) := (pointsTo_share (PosShare.mem_left_op_right fullShare)).2
  ihave Hv0 := hjoin $$ [Hl Hr]
  · isplitl [Hl]; · iexact Hl
    iexact Hr
  isplitl [Ha0]; · iexact Ha0
  isplitl [Ha1]; · iexact Ha1
  isplitl [Ha2]; · iexact Ha2
  isplitl [Hv0]; · iexact Hv0
  isplitl [Hv10]; · iexact Hv10
  isplitl [Hv11]; · iexact Hv11
  isplitl [Hv2]; · iexact Hv2
  isplitl [Hv3]; · iexact Hv3
  isplitl [Hv4]; · iexact Hv4
  iexact Hv5

end Arrays0

end Cert.KernelIdeal.Hand

end
-- ==== Proof.KI1Body.lean ====
/-
  The gate call: one point, every block a whole array.

  The call reads the [32, 256] matrices of row sums and row maxima and the two weight matrices whole, and writes the
  [32, 256] gate matrix whole. This file states what the body leaves in the output buffer as a function of the four
  input blocks, proves the body's triple, and packs the pipeline's proof data.
-/
import proofs.«177346_g2000607127200456_pallasbulk_51_10_alg».proof.Proof.Gen.KernelIdeal.Launch
import proofs.«177346_g2000607127200456_pallasbulk_51_10_alg».proof.Proof.Gen.KernelIdeal.Skeleton
import proofs.«177346_g2000607127200456_pallasbulk_51_10_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at the point, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole matrices, as the body's accesses. -/
abbrev r1_p : Rect S32x256 := Rect.unit (s := S32x256) ![0, 0] S32x256.size inb_S32x256_S32x256_0_0
abbrev r1_a : Rect S16x256 := Rect.unit (s := S16x256) ![0, 0] S16x256.size inb_S16x256_S16x256_0_0
abbrev r1_b : Rect S256x16 := Rect.unit (s := S256x16) ![0, 0] S256x16.size inb_S256x16_S256x16_0_0

/-- The gate buffer after the body: one store of the whole matrix. -/
def out1_4 (x0 x1 : Vec F S32x256 .f32) (x2 : Vec F S16x256 .f32) (x3 : Vec F S256x16 .f32) : Vec F S32x256 .f32 :=
  View.canon [⟨r1_p, k1_pay1 (View.ld x0 r1_p) (View.ld x1 r1_p) (View.ld x2 r1_a) (View.ld x3 r1_b)⟩]

theorem cover1_4 (p0 : Vec F S32x256 .f32) (y : S32x256.Idx) :
    ∃ pc ∈ ([⟨r1_p, p0⟩] : List (View.Piece (Elt F) S32x256 .f32)), y ∈ pc.1.set :=
  View.cover_of_tiled [⟨r1_p, p0⟩] S32x256.size (by rfl) y

set_option maxHeartbeats 1000000 in
/-- The body on whole staging memrefs, the inputs' at `x0` … `x3` and the output's at anything, runs to the continuation
    holding the inputs' as they were and the output's at `out1_4` of the inputs'. -/
theorem sound_kernel1 (c : Dev nD) (E : Set ℕ) (arg0 : Memref sig .tc .vmem S32x256 .f32) (harg0 : arg0.IsWhole)
    (arg1 : Memref sig .tc .vmem S32x256 .f32) (harg1 : arg1.IsWhole) (arg2 : Memref sig .tc .vmem S16x256 .f32) (harg2 : arg2.IsWhole)
    (arg3 : Memref sig .tc .vmem S256x16 .f32) (harg3 : arg3.IsWhole) (arg4 : Memref sig .tc .vmem S32x256 .f32) (harg4 : arg4.IsWhole)
    (x0 x1 : Vec F S32x256 .f32) (x2 : Vec F S16x256 .f32) (x3 : Vec F S256x16 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out1_4 x0 x1 x2 x3)) -∗ K ⟨⟩))
      ⊢ wp frame (wpE (defs₀ (F := F)) Variants.none c none) E (cc1_mlp_body arg0 harg0 arg1 harg1 arg2 harg2 arg3 harg3 arg4 harg4) K := by
  simp only [cc1_mlp_body_eq_skeleton]; unfold cc1_mlp_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of the gate call on core `c`: the arrays as the call finds them; after the body each input's buffer
    at its block and the output's at the body's result; the invariant the scoped rest and the generator register,
    untouched; nothing owed; every array held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KIRun.lean ====
/-
  The program's run, from launch to return.

  The program is five items in a row: a reshape of the input, the pooling call, two reshapes of its results, the gate
  call, a reshape of the gate. This file names what every long-lived buffer holds at each of the six boundaries — the launch
  memory, then each item applied in turn: a reshape writes its result, a call leaves its output arrays at what its
  write-backs wrote and everything else alone — states each call as a segment entered from one boundary's contents and
  left at the next, and concludes that every execution terminates with every long-lived buffer at the last boundary's
  contents. The arguments are written by no item, so they end as launched.
-/
import proofs.«177346_g2000607127200456_pallasbulk_51_10_alg».proof.Proof.Gen.KernelIdeal.Launch
import proofs.«177346_g2000607127200456_pallasbulk_51_10_alg».proof.Proof.Gen.KernelIdeal.Skeleton
import proofs.«177346_g2000607127200456_pallasbulk_51_10_alg».proof.Proof.Gen.KernelIdeal.Points
import proofs.«177346_g2000607127200456_pallasbulk_51_10_alg».proof.Proof.Gen.KernelIdeal.Regions
import proofs.«177346_g2000607127200456_pallasbulk_51_10_alg».proof.Proof.KI0Arr
import proofs.«177346_g2000607127200456_pallasbulk_51_10_alg».proof.Proof.KI1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev W0 : Dev nD → Valuation τ sig (Elt F) := fun c b => (s₀ m ρ).mem ((c : Dev nD), b)
/-- After the input's reshape: the pooling call's entry. -/
abbrev W1 : Dev nD → Valuation τ sig (Elt F) := fun c => StableHlo.after hostOps0 (W0 m ρ c)
abbrev A1 : (c : Dev nD) → (b : Ref sig .tc) → Buf (Elt F) ((c : Thread nD τ).loc b) := fun c b => W1 m ρ c b
/-- After the pooling call: its two output arrays at what the write-backs left, every other buffer as entered. -/
def W2 (c : Dev nD) : Valuation τ sig (Elt F) :=
  Function.update (Function.update (W1 m ρ c) (Proc.devRef .tc main_v1_0) ((dat0 (A1 m ρ) c).arrAt 2 cfg0.N))
    (Proc.devRef .tc main_v1_1) ((dat0 (A1 m ρ) c).arrAt 3 cfg0.N)
theorem W2_v1_1 (c : Dev nD) : W2 m ρ c (Proc.devRef .tc main_v1_1) = (dat0 (A1 m ρ) c).arrAt 3 cfg0.N := by
  unfold W2; exact Function.update_self ..
theorem W2_v1_0 (c : Dev nD) : W2 m ρ c (Proc.devRef .tc main_v1_0) = (dat0 (A1 m ρ) c).arrAt 2 cfg0.N := by
  unfold W2
  rw [Function.update_of_ne (StableHlo.devRef_ne_of_ne (by decide) : (Proc.devRef .tc main_v1_0 : DevRef τ sig) ≠ Proc.devRef .tc main_v1_1)]
  exact Function.update_self ..
theorem W2_of_ne (c : Dev nD) (b : Ref sig .tc) (h0 : b ≠ main_v1_0) (h1 : b ≠ main_v1_1) :
    W2 m ρ c (Proc.devRef .tc b) = W1 m ρ c (Proc.devRef .tc b) := by
  unfold W2
  rw [Function.update_of_ne (StableHlo.devRef_ne_of_ne h1 : (Proc.devRef .tc b : DevRef τ sig) ≠ Proc.devRef .tc main_v1_1),
    Function.update_of_ne (StableHlo.devRef_ne_of_ne h0 : (Proc.devRef .tc b : DevRef τ sig) ≠ Proc.devRef .tc main_v1_0)]
abbrev A2 : (c : Dev nD) → (b : Ref sig .tc) → Buf (Elt F) ((c : Thread nD τ).loc b) := fun c b => W2 m ρ c b

/-- After the two reshapes of the pooled columns: the gate call's entry. -/
abbrev W3 : Dev nD → Valuation τ sig (Elt F) := fun c => StableHlo.after hostOps1 (W2 m ρ c)
abbrev A3 : (c : Dev nD) → (b : Ref sig .tc) → Buf (Elt F) ((c : Thread nD τ).loc b) := fun c b => W3 m ρ c b
/-- After the gate call: its arrays at what the pipeline leaves, every other buffer as entered. -/
def W4 (c : Dev nD) : Valuation τ sig (Elt F) :=
  Pipeline.withArrays spec1 c (W3 m ρ c) fun w => (dat1 (A3 m ρ) c).arrAt w cfg1.N
theorem W4_arr (c : Dev nD) (w : Fin cfg1.W) :
    W4 m ρ c (Proc.devRef .tc (Pipeline.arrRef spec1 w)) = (dat1 (A3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev A4 : (c : Dev nD) → (b : Ref sig .tc) → Buf (Elt F) ((c : Thread nD τ).loc b) := fun c b => W4 m ρ c b
theorem hF1 (c : Dev nD) (w : Fin cfg1.W) : (dat1 (A3 m ρ) c).arrAt w cfg1.N = A4 m ρ c (Pipeline.arrRef spec1 w) :=
  (W4_arr m ρ c w).symm
theorem hrest1 (c : Dev nD) : ∀ b, b ∉ Finset.univ.image (Pipeline.arrRef spec1) → A4 m ρ c b = A3 m ρ c b :=
  fun b hb => W4_of_ne m ρ c b fun w e => hb (Finset.mem_image.mpr ⟨w, Finset.mem_univ _, e⟩)
/-- After the gate's reshape: the return. -/
abbrev W5 : Dev nD → Valuation τ sig (Elt F) := fun c => StableHlo.after hostOps2 (W4 m ρ c)

/-! ## No item writes an argument -/

theorem W5_arg (c : Dev nD) (r : Ref sig .tc) (h0 : r ∉ hostOps0_W) (h1 : r ∉ hostOps1_W) (h2 : r ∉ hostOps2_W)
    (ha : r ≠ main_v1_0) (hb : r ≠ main_v1_1) (hc : ∀ w, Pipeline.arrRef spec1 w ≠ r ∨ (cfg1.win w).isOut = false) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := by
          by_cases hw : ∃ w, Pipeline.arrRef spec1 w = r
          · obtain ⟨w, rfl⟩ := hw
            have hin : (cfg1.win w).isOut = false := (hc w).resolve_left (fun h => h rfl)
            exact (W4_arr m ρ c w).trans (((dat1 (A3 m ρ) c).arrAt_in w hin _).trans (A_eq1 (A3 m ρ) c w))
          · exact W4_of_ne m ρ c r fun w e => hw ⟨w, e⟩
    _ = W2 m ρ c (Proc.devRef .tc r) := StableHlo.after_of_writes_sub hostOps1 _ hostOps1_writes h1
    _ = W1 m ρ c (Proc.devRef .tc r) := W2_of_ne m ρ c r ha hb
    _ = W0 m ρ c (Proc.devRef .tc r) := StableHlo.after_of_writes_sub hostOps0 _ hostOps0_writes h0
    _ = m ((c : Thread nD τ).loc r) := rfl

theorem W5_main_arg0 (c : Dev nD) : W5 m ρ c (Proc.devRef .tc main_arg0) = m ((c : Thread nD τ).loc main_arg0) :=
  W5_arg m ρ c main_arg0 (by decide) (by decide) (by decide) (by decide) (by decide) (by decide)
theorem W5_main_arg1 (c : Dev nD) : W5 m ρ c (Proc.devRef .tc main_arg1) = m ((c : Thread nD τ).loc main_arg1) :=
  W5_arg m ρ c main_arg1 (by decide) (by decide) (by decide) (by decide) (by decide) (by decide)
theorem W5_main_arg2 (c : Dev nD) : W5 m ρ c (Proc.devRef .tc main_arg2) = m ((c : Thread nD τ).loc main_arg2) :=
  W5_arg m ρ c main_arg2 (by decide) (by decide) (by decide) (by decide) (by decide) (by decide)

/-! ## The proof data family and the thread state -/

/-- Both calls' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (A1 m ρ) c
  | ⟨1, _⟩ => fun c => dat1 (A3 m ρ) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of host operations as a segment over the long-lived buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every long-lived buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The calls as segments -/

set_option backward.isDefEq.respectTransparency.types false in
/-- The pooling call: entered from the contents after the input's reshape, left at those with its two output arrays
    updated. On entry the reshaped input's buffer is dealt in two halves to the two windows that read it; on exit the
    halves are joined again. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (A1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (A1 m ρ c)
  hentry c := by
    rw [Pipeline.ownSems0_none]
    have hsplit := arrays0_of_unscopedBufs (A1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 (A1 m ρ) c (A2 m ρ c)
      (W2_of_ne m ρ c main_v0 (by decide) (by decide)) (W2_v1_0 m ρ c) (W2_v1_1 m ρ c)
      (W2_of_ne m ρ c main_arg0 (by decide) (by decide)) (W2_of_ne m ρ c main_arg1 (by decide) (by decide))
      (W2_of_ne m ρ c main_arg2 (by decide) (by decide)) (W2_of_ne m ρ c main_v2 (by decide) (by decide))
      (W2_of_ne m ρ c main_v3 (by decide) (by decide)) (W2_of_ne m ρ c main_v4 (by decide) (by decide))
      (W2_of_ne m ρ c main_v5 (by decide) (by decide))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The gate call: entered from the contents after the pooled columns' reshapes, left at those with its arrays at what
    the pipeline leaves. Its arrays are five distinct buffers, split out of the long-lived buffers and put back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (A3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (A3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (A3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (A3 m ρ c) (A4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every long-lived buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Hand

end
-- ==== Proof.Gate.lean ====
/-
  The channel gate as one function of the argument arrays.

  For an input `x` of shape [32, 256, 1024] (the image read as 32 × 256 rows of 1024 pixels), a first weight matrix
  `w1` of shape [16, 256] and a second `w2` of shape [256, 16], over the extended reals:

    sum n c   = Σ_k x[n, c, k]                      avg n c = sum n c · 2⁻¹⁰
    peak n c  = max_k x[n, c, k]   (from −∞)
    hidden p r = max (Σ_c w1[r, c] · p c) 0
    out h j    = Σ_r w2[j, r] · h r
    gate n j   = logistic (out (hidden (avg n)) j + out (hidden (peak n)) j)

  The scale 2⁻¹⁰ is kept as the f32 word both programs carry, never evaluated.
-/
import Idealize.ShloMosaic.Lib.ValueIdx
import Idealize.ShloMosaic.PureOps.Ideal.Laws

noncomputable section

open scoped BigOperators

namespace Cert.Gate

open Idealize.ShloMosaic Idealize.ShloMosaic.ValueIdx

/-- The word of 2⁻¹⁰ both programs multiply a row sum by, as an extended real. -/
def scale : EReal := Ideal.ofBits .f32 0x3A800000#32

/-- The sum of row `(n, c)`. -/
def chanSum (x : (⟨3, ![32, 256, 1024]⟩ : Shape).Idx → EReal) (n : Fin 32) (c : Fin 256) : EReal :=
  ∑ k : Fin 1024, x (ix3 n c k)

/-- The maximum of row `(n, c)`, from −∞. -/
def chanMax (x : (⟨3, ![32, 256, 1024]⟩ : Shape).Idx → EReal) (n : Fin 32) (c : Fin 256) : EReal :=
  (Finset.univ : Finset (Fin 1024)).fold max ⊥ (fun k => x (ix3 n c k))

/-- The hidden layer of a pooled column `p`: the first product, clipped below at 0. -/
def hidden (w1 : (⟨2, ![16, 256]⟩ : Shape).Idx → EReal) (p : Fin 256 → EReal) (r : Fin 16) : EReal :=
  max (∑ c : Fin 256, w1 (ix2 r c) * p c) 0

/-- The second product of a hidden column `h`. -/
def outp (w2 : (⟨2, ![256, 16]⟩ : Shape).Idx → EReal) (h : Fin 16 → EReal) (j : Fin 256) : EReal :=
  ∑ r : Fin 16, w2 (ix2 j r) * h r

/-- The gate of image `n` at output channel `j`. -/
def gate (x : (⟨3, ![32, 256, 1024]⟩ : Shape).Idx → EReal) (w1 : (⟨2, ![16, 256]⟩ : Shape).Idx → EReal)
    (w2 : (⟨2, ![256, 16]⟩ : Shape).Idx → EReal) (n : Fin 32) (j : Fin 256) : EReal :=
  Ideal.logistic (outp w2 (hidden w1 (fun c => chanSum x n c * scale)) j + outp w2 (hidden w1 (chanMax x n)) j)

/-- The gate as the [32, 256, 1, 1] array both programs return. -/
def gate4 (x : (⟨3, ![32, 256, 1024]⟩ : Shape).Idx → EReal) (w1 : (⟨2, ![16, 256]⟩ : Shape).Idx → EReal)
    (w2 : (⟨2, ![256, 16]⟩ : Shape).Idx → EReal) : (⟨4, ![32, 256, 1, 1]⟩ : Shape).Idx → EReal :=
  fun i => gate x w1 w2 (i 0) (i 1)

/-- The gate as a [32, 256] matrix. -/
def gate2 (x : (⟨3, ![32, 256, 1024]⟩ : Shape).Idx → EReal) (w1 : (⟨2, ![16, 256]⟩ : Shape).Idx → EReal)
    (w2 : (⟨2, ![256, 16]⟩ : Shape).Idx → EReal) : (⟨2, ![32, 256]⟩ : Shape).Idx → EReal :=
  fun i => gate x w1 w2 (i 0) (i 1)

/-- The gate as a [32, 256, 1] array. -/
def gate3 (x : (⟨3, ![32, 256, 1024]⟩ : Shape).Idx → EReal) (w1 : (⟨2, ![16, 256]⟩ : Shape).Idx → EReal)
    (w2 : (⟨2, ![256, 16]⟩ : Shape).Idx → EReal) : (⟨3, ![32, 256, 1]⟩ : Shape).Idx → EReal :=
  fun i => gate x w1 w2 (i 0) (i 1)

end Cert.Gate

end
-- ==== Proof.KPay0.lean ====
/-
  The first kernel body's two stored columns, read at an index.

  The body loads two half-row blocks of shape [8, 256, 512] (pixels 0..511 and 512..1023 of the same 8 × 256 rows) and
  stores, as [8, 256, 1] columns, the sum of the two row sums and the larger of the two row maxima. At the extended reals
  a lane sum is the finite sum over the 512 lane coordinates, a lane maximum is the fold of `max` from −∞ over them,
  and the shape casts only re-label indices, so at column index (b, c, 0):

    sums    (b, c, 0) = Σ_k x0[b, c, k] + Σ_k x1[b, c, k]
    maxima  (b, c, 0) = max (max_k x0[b, c, k]) (max_k x1[b, c, k])
-/
import proofs.«177346_g2000607127200456_pallasbulk_51_10_alg».proof.Proof.Gen.KernelIdeal.Skeleton
import proofs.«177346_g2000607127200456_pallasbulk_51_10_alg».proof.Proof.Gate
import Idealize.ShloMosaic.Lib.ValueLayout

noncomputable section

open scoped BigOperators

namespace Cert.KernelIdeal.Pay

open Idealize.ShloMosaic Idealize.ShloMosaic.ValueIdx Cert.KernelIdeal

variable [Cert.KernelIdeal.Facts]

/-- The source index over row (b, c) with lane coordinate k is (b, c, k). -/
theorem lift_row (h : S8x256x512.Reduces [2] S8x256) (b : Fin 8) (c : Fin 256) (k : Fin 512) :
    h.lift (ix2 b c) k = ix3 b c k := by
  funext a
  apply Fin.ext
  match a with
  | ⟨0, _⟩ => rfl
  | ⟨1, _⟩ => rfl
  | ⟨2, _⟩ => rfl

/-- An [8, 256] array viewed as an [8, 256, 1] column reads, at (b, c, u), the array at (b, c): both indices sit at the
    same row-major position b · 256 + c. -/
theorem column_apply {α : Type} (v : S8x256.Idx → α) (h : S8x256.ShapeCasts S8x256x1) (b : Fin 8) (c : Fin 256) (u : Fin 1) :
    shapeCast S8x256x1 v h (ix3 b c u) = v (ix2 b c) :=
  shapeCast_apply v h _ _ (by
    have hu : u.val = 0 := by omega
    rw [Shape.rowMajor_val_two, Shape.rowMajor_val_three]
    show b.val * 256 + c.val = (b.val * 256 + c.val) * 1 + u.val
    omega)

/-- The lane sum of a block at row (b, c) is the sum of the row's 512 entries. -/
theorem rowSum_apply (src : FVec Ideal S8x256x512 .f32) (h : S8x256x512.Reduces [2] S8x256) (hφ : FKind.Formats .f32)
    (hacc : (0x00000000#32 : BitVec 32) = FKind.add.neutral .f32 hφ) (b : Fin 8) (c : Fin 256) :
    multiReduction .add [2] S8x256 src 0x00000000#32 h hφ hacc (ix2 b c) = ∑ k : Fin 512, src (ix3 b c k) :=
  (Ideal.multiReduction_add_single src _ h hφ hacc (ix2 b c)).trans
    (Finset.sum_congr rfl fun k _ => congrArg src (lift_row h b c k))

/-- The word 0xFF800000 is −∞. -/
theorem ofBits_neg_inf_f32 : Ideal.ofBits .f32 0xFF800000#32 = ⊥ := by simp [Ideal.ofBits, Ideal.ieee]

/-- The lane maximum of a block at row (b, c) is the fold of `max` from −∞ over the row's 512 entries. -/
theorem rowMax_apply (src : FVec Ideal S8x256x512 .f32) (h : S8x256x512.Reduces [2] S8x256) (hφ : FKind.Formats .f32)
    (hacc : (0xFF800000#32 : BitVec 32) = FKind.maximumf.neutral .f32 hφ) (b : Fin 8) (c : Fin 256) :
    multiReduction .maximumf [2] S8x256 src 0xFF800000#32 h hφ hacc (ix2 b c)
      = (Finset.univ : Finset (Fin 512)).fold max ⊥ (fun k => src (ix3 b c k)) := by
  refine (Ideal.multiReduction_maximumf_single src _ h hφ hacc (ix2 b c)).trans ?_
  have e : (src ∘ h.lift (ix2 b c)) = fun k : Fin 512 => src (ix3 b c k) :=
    funext fun k => congrArg src (lift_row h b c k)
  have hb : (FloatOps.ofBits (F := Ideal) .f32 0xFF800000#32 : EReal) = ⊥ := ofBits_neg_inf_f32
  rw [e, hb]
  rfl

/-- The stored column of sums at (b, c, 0): the sum of the first half row plus the sum of the second half row. -/
theorem pay3_apply (x0 x1 : Vec Ideal S8x256x512 .f32) (b : Fin 8) (c : Fin 256) :
    Gen.k0_pay3 (F := Ideal) x0 x1 (ix3 b c (0 : Fin 1))
      = (∑ k : Fin 512, x0 (ix3 b c k)) + ∑ k : Fin 512, x1 (ix3 b c k) := by
  unfold Gen.k0_pay3 Gen.k0_pay1 Gen.k0_pay2
  refine (addf_apply _ _ _).trans ?_
  refine congrArg₂ (· + ·) ?_ ?_
  · refine (column_apply _ _ b c 0).trans ?_
    refine (rowSum_apply _ _ _ _ b c).trans ?_
    exact Finset.sum_congr rfl fun k _ => congrFun (shapeCast_self x0 _) _
  · refine (column_apply _ _ b c 0).trans ?_
    refine (rowSum_apply _ _ _ _ b c).trans ?_
    exact Finset.sum_congr rfl fun k _ => congrFun (shapeCast_self x1 _) _

/-- The stored column of maxima at (b, c, 0): the larger of the two half rows' maxima. -/
theorem pay4_apply (x0 x1 : Vec Ideal S8x256x512 .f32) (b : Fin 8) (c : Fin 256) :
    Gen.k0_pay4 (F := Ideal) x0 x1 (ix3 b c (0 : Fin 1))
      = max ((Finset.univ : Finset (Fin 512)).fold max ⊥ (fun k => x0 (ix3 b c k)))
          ((Finset.univ : Finset (Fin 512)).fold max ⊥ (fun k => x1 (ix3 b c k))) := by
  unfold Gen.k0_pay4 Gen.k0_pay1 Gen.k0_pay2
  refine (maximumf_apply _ _ _).trans ?_
  refine congrArg₂ max ?_ ?_
  · refine (column_apply _ _ b c 0).trans ?_
    refine (rowMax_apply _ _ _ _ b c).trans ?_
    rw [shapeCast_self]
  · refine (column_apply _ _ b c 0).trans ?_
    refine (rowMax_apply _ _ _ _ b c).trans ?_
    rw [shapeCast_self]

end Cert.KernelIdeal.Pay

end
-- ==== Proof.Halves.lean ====
/-
  Two joining laws for a row of 1024 extended reals read as two half rows of 512.

  The sum of a row is the sum of its first half plus the sum of its second half, and the maximum of a row
  (from −∞) is the larger of the maxima of its two halves. Both are consequences of the commutativity and
  associativity of + and max only; no finiteness of the entries is used.
-/
import Mathlib.Data.EReal.Basic
import Mathlib.Algebra.BigOperators.Fin
import Mathlib.Data.Finset.Lattice.Fold

open scoped BigOperators

namespace Cert.Gate

/-- The sum of a row of 1024 entries is the sum over its first 512 entries plus the sum over its last 512:
    the index set Fin 1024 is the disjoint union of the two images of Fin 512. -/
theorem sum_halves (f : Fin 1024 → EReal) :
    (∑ k : Fin 512, f ⟨k.val, by omega⟩) + (∑ k : Fin 512, f ⟨512 + k.val, by omega⟩) = ∑ k : Fin 1024, f k :=
  (Fin.sum_univ_add (a := 512) (b := 512) f).symm

/-- A fold of `max` from `⊥` is the finite supremum. -/
private theorem fold_max_eq_sup {ι : Type} (s : Finset ι) (g : ι → EReal) :
    s.fold max ⊥ g = s.sup g := rfl

/-- The maximum (from −∞) of a row of 1024 entries is the larger of the maxima of its two halves: each
    entry lies in exactly one half, so each side bounds the other. -/
theorem max_halves (f : Fin 1024 → EReal) :
    max ((Finset.univ : Finset (Fin 512)).fold max ⊥ (fun k => f ⟨k.val, by omega⟩))
        ((Finset.univ : Finset (Fin 512)).fold max ⊥ (fun k => f ⟨512 + k.val, by omega⟩))
      = (Finset.univ : Finset (Fin 1024)).fold max ⊥ f := by
  rw [fold_max_eq_sup, fold_max_eq_sup, fold_max_eq_sup]
  apply le_antisymm
  · refine max_le ?_ ?_
    · exact Finset.sup_le fun k _ => Finset.le_sup (f := f) (Finset.mem_univ _)
    · exact Finset.sup_le fun k _ => Finset.le_sup (f := f) (Finset.mem_univ _)
  · refine Finset.sup_le fun k _ => ?_
    by_cases h : k.val < 512
    · exact le_max_of_le_left
        (Finset.le_sup (f := fun j : Fin 512 => f ⟨j.val, by omega⟩) (Finset.mem_univ (⟨k.val, h⟩ : Fin 512)))
    · have hk : k.val - 512 < 512 := by omega
      have e : f k = (fun j : Fin 512 => f ⟨512 + j.val, by omega⟩) ⟨k.val - 512, hk⟩ := by
        apply congrArg f
        apply Fin.ext
        show k.val = 512 + (k.val - 512)
        omega
      rw [e]
      exact le_max_of_le_right
        (Finset.le_sup (f := fun j : Fin 512 => f ⟨512 + j.val, by omega⟩) (Finset.mem_univ (⟨k.val - 512, hk⟩ : Fin 512)))

end Cert.Gate
-- ==== Proof.KIVal0.lean ====
/-
  What the pooling call leaves in its two output arrays.

  Point `t` of the four handles images 8t … 8t+7. Its first input block is pixels 0..511 of those images' rows and its
  second pixels 512..1023; its output blocks are rows 8t … 8t+7 of the two [32, 256, 1] columns. So entry (n, c, 0) of the
  sums' array is written by point n / 8 with the sum of the row's first half plus the sum of its second half — the sum of
  the whole row — and the same entry of the maxima's array with the larger of the two halves' maxima — the maximum of the
  whole row. The four points' blocks tile the arrays, so after the call each array is that function everywhere.
-/
import proofs.«177346_g2000607127200456_pallasbulk_51_10_alg».proof.Proof.KI0Body
import proofs.«177346_g2000607127200456_pallasbulk_51_10_alg».proof.Proof.KPay0
import proofs.«177346_g2000607127200456_pallasbulk_51_10_alg».proof.Proof.Halves
import proofs.«177346_g2000607127200456_pallasbulk_51_10_alg».proof.Proof.Gate
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- The index maps over the grid: point `t` reads slab `t` of the input at half 0 and half 1, and writes slab `t` of
    each output column. -/
theorem idx_facts0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 1
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

theorem lt4 (t : Fin cfg0.N) : t.val < 4 := by
  have h : t.val < grid0.N := t.isLt
  rw [N_0] at h
  exact h

/-- The row sums as a [32, 256, 1] column. -/
def sums (x : S32x256x1024.Idx → EReal) : S32x256x1.Idx → EReal := fun i => Cert.Gate.chanSum x (i 0) (i 1)
/-- The row maxima as a [32, 256, 1] column. -/
def peaks (x : S32x256x1024.Idx → EReal) : S32x256x1.Idx → EReal := fun i => Cert.Gate.chanMax x (i 0) (i 1)

/-- Where the first input's block sits in the array: image 8t + b, channel ch, pixel k. -/
theorem emb0_0 (t : Fin cfg0.N) (b : Fin 8) (ch : Fin 256) (k : Fin 512) :
    (((cfg0.win 0).blk t).view.emb (ix3 b ch k) : S32x256x1024.Idx)
      = ix3 (⟨8 * t.val + b.val, by have := lt4 t; omega⟩ : Fin 32) ch (⟨k.val, by omega⟩ : Fin 1024) := by
  obtain ⟨e00, e01, e02, -⟩ := idx_facts0 t
  funext a; apply Fin.ext
  match a with
  | ⟨0, _⟩ => show win0_0.index t (0 : Fin 3) * 8 + 1 * b.val = 8 * t.val + b.val; omega
  | ⟨1, _⟩ => show win0_0.index t (1 : Fin 3) * 256 + 1 * ch.val = ch.val; omega
  | ⟨2, _⟩ => show win0_0.index t (2 : Fin 3) * 512 + 1 * k.val = k.val; omega

/-- Where the second input's block sits: image 8t + b, channel ch, pixel 512 + k. -/
theorem emb0_1 (t : Fin cfg0.N) (b : Fin 8) (ch : Fin 256) (k : Fin 512) :
    (((cfg0.win 1).blk t).view.emb (ix3 b ch k) : S32x256x1024.Idx)
      = ix3 (⟨8 * t.val + b.val, by have := lt4 t; omega⟩ : Fin 32) ch (⟨512 + k.val, by omega⟩ : Fin 1024) := by
  obtain ⟨-, -, -, e10, e11, e12, -⟩ := idx_facts0 t
  funext a; apply Fin.ext
  match a with
  | ⟨0, _⟩ => show win0_1.index t (0 : Fin 3) * 8 + 1 * b.val = 8 * t.val + b.val; omega
  | ⟨1, _⟩ => show win0_1.index t (1 : Fin 3) * 256 + 1 * ch.val = ch.val; omega
  | ⟨2, _⟩ => show win0_1.index t (2 : Fin 3) * 512 + 1 * k.val = 512 + k.val; omega

/-- Where the sums' block sits: row 8t + b of the column. -/
theorem emb0_2 (t : Fin cfg0.N) (b : Fin 8) (ch : Fin 256) (u : Fin 1) :
    (((cfg0.win 2).blk t).view.emb (ix3 b ch u) : S32x256x1.Idx)
      = ix3 (⟨8 * t.val + b.val, by have := lt4 t; omega⟩ : Fin 32) ch (0 : Fin 1) := by
  obtain ⟨-, -, -, -, -, -, e20, e21, e22, -⟩ := idx_facts0 t
  funext a; apply Fin.ext
  match a with
  | ⟨0, _⟩ => show win0_2.index t (0 : Fin 3) * 8 + 1 * b.val = 8 * t.val + b.val; omega
  | ⟨1, _⟩ => show win0_2.index t (1 : Fin 3) * 256 + 1 * ch.val = ch.val; omega
  | ⟨2, _⟩ => show win0_2.index t (2 : Fin 3) * 1 + 1 * u.val = 0; omega

/-- Where the maxima's block sits: row 8t + b of the column. -/
theorem emb0_3 (t : Fin cfg0.N) (b : Fin 8) (ch : Fin 256) (u : Fin 1) :
    (((cfg0.win 3).blk t).view.emb (ix3 b ch u) : S32x256x1.Idx)
      = ix3 (⟨8 * t.val + b.val, by have := lt4 t; omega⟩ : Fin 32) ch (0 : Fin 1) := by
  obtain ⟨-, -, -, -, -, -, -, -, -, e30, e31, e32⟩ := idx_facts0 t
  funext a; apply Fin.ext
  match a with
  | ⟨0, _⟩ => show win0_3.index t (0 : Fin 3) * 8 + 1 * b.val = 8 * t.val + b.val; omega
  | ⟨1, _⟩ => show win0_3.index t (1 : Fin 3) * 256 + 1 * ch.val = ch.val; omega
  | ⟨2, _⟩ => show win0_3.index t (2 : Fin 3) * 1 + 1 * u.val = 0; omega

/-- One entry of the sums' block: if the two loaded blocks are the two halves of row `(n, ch)` of `X`, the body's sum
    there is the sum of the whole row. -/
theorem sum_point (X : S32x256x1024.Idx → EReal) (x0 x1 : Vec Ideal S8x256x512 .f32) (n : Fin 32) (b : Fin 8) (ch : Fin 256)
    (h0 : ∀ k : Fin 512, x0 (ix3 b ch k) = X (ix3 n ch (⟨k.val, by omega⟩ : Fin 1024)))
    (h1 : ∀ k : Fin 512, x1 (ix3 b ch k) = X (ix3 n ch (⟨512 + k.val, by omega⟩ : Fin 1024))) :
    k0_pay3 (F := Ideal) x0 x1 (ix3 b ch (0 : Fin 1)) = Cert.Gate.chanSum X n ch := by
  refine (Cert.KernelIdeal.Pay.pay3_apply x0 x1 b ch).trans ?_
  unfold Cert.Gate.chanSum
  rw [← Cert.Gate.sum_halves (fun k => X (ix3 n ch k))]
  congr 1
  · exact Finset.sum_congr rfl fun k _ => h0 k
  · exact Finset.sum_congr rfl fun k _ => h1 k

/-- One entry of the maxima's block: the larger of the two halves' maxima is the maximum of the whole row. -/
theorem max_point (X : S32x256x1024.Idx → EReal) (x0 x1 : Vec Ideal S8x256x512 .f32) (n : Fin 32) (b : Fin 8) (ch : Fin 256)
    (h0 : ∀ k : Fin 512, x0 (ix3 b ch k) = X (ix3 n ch (⟨k.val, by omega⟩ : Fin 1024)))
    (h1 : ∀ k : Fin 512, x1 (ix3 b ch k) = X (ix3 n ch (⟨512 + k.val, by omega⟩ : Fin 1024))) :
    k0_pay4 (F := Ideal) x0 x1 (ix3 b ch (0 : Fin 1)) = Cert.Gate.chanMax X n ch := by
  refine (Cert.KernelIdeal.Pay.pay4_apply x0 x1 b ch).trans ?_
  unfold Cert.Gate.chanMax
  rw [← Cert.Gate.max_halves (fun k => X (ix3 n ch k))]
  have e0 : (fun k : Fin 512 => x0 (ix3 b ch k)) = fun k : Fin 512 => X (ix3 n ch (⟨k.val, by omega⟩ : Fin 1024)) := funext h0
  have e1 : (fun k : Fin 512 => x1 (ix3 b ch k)) = fun k : Fin 512 => X (ix3 n ch (⟨512 + k.val, by omega⟩ : Fin 1024)) := funext h1
  rw [e0, e1]

/-- WHAT POINT `t` WRITES BACK to the sums' array is block `t` of the row sums of the input as the call finds it. -/
theorem flushed0_2_eq (c : Dev nD) (t : Fin cfg0.N) :
    (dat0 V c).flushed 2 t = ((cfg0.win 2).blk t).view.read (Elt Ideal) (sums (V c main_v0)) := by
  show (cfg0.win 2).cut (grid0.coords t) ((dat0 V c).after 2 t) = _
  rw [after0_2]
  unfold out0_2
  rw [View.canon_unit_zero hz3]
  simp only [View.ld_unit_zero (S := S8x256x512) hz3]
  funext j
  obtain ⟨b, ch, u, rfl⟩ : ∃ (b : Fin 8) (ch : Fin 256) (u : Fin 1), j = ix3 b ch u := ⟨j 0, j 1, j 2, eq_ix3 j⟩
  obtain rfl : u = 0 := Subsingleton.elim _ _
  show k0_pay3 (F := Ideal) (iblk0 V c 0 t) (iblk0 V c 1 t) (ix3 b ch (0 : Fin 1))
    = sums (V c main_v0) (((cfg0.win 2).blk t).view.emb (ix3 b ch (0 : Fin 1)))
  refine (sum_point (V c main_v0) _ _ (⟨8 * t.val + b.val, by have := lt4 t; omega⟩ : Fin 32) b ch
    (fun k => congrArg (V c main_v0) (emb0_0 t b ch k)) (fun k => congrArg (V c main_v0) (emb0_1 t b ch k))).trans ?_
  exact (congrArg (sums (V c main_v0)) (emb0_2 t b ch 0)).symm

/-- WHAT POINT `t` WRITES BACK to the maxima's array is block `t` of the row maxima of the input. -/
theorem flushed0_3_eq (c : Dev nD) (t : Fin cfg0.N) :
    (dat0 V c).flushed 3 t = ((cfg0.win 3).blk t).view.read (Elt Ideal) (peaks (V c main_v0)) := by
  show (cfg0.win 3).cut (grid0.coords t) ((dat0 V c).after 3 t) = _
  rw [after0_3]
  unfold out0_3
  rw [View.canon_unit_zero hz3]
  simp only [View.ld_unit_zero (S := S8x256x512) hz3]
  funext j
  obtain ⟨b, ch, u, rfl⟩ : ∃ (b : Fin 8) (ch : Fin 256) (u : Fin 1), j = ix3 b ch u := ⟨j 0, j 1, j 2, eq_ix3 j⟩
  obtain rfl : u = 0 := Subsingleton.elim _ _
  show k0_pay4 (F := Ideal) (iblk0 V c 0 t) (iblk0 V c 1 t) (ix3 b ch (0 : Fin 1))
    = peaks (V c main_v0) (((cfg0.win 3).blk t).view.emb (ix3 b ch (0 : Fin 1)))
  refine (max_point (V c main_v0) _ _ (⟨8 * t.val + b.val, by have := lt4 t; omega⟩ : Fin 32) b ch
    (fun k => congrArg (V c main_v0) (emb0_0 t b ch k)) (fun k => congrArg (V c main_v0) (emb0_1 t b ch k))).trans ?_
  exact (congrArg (peaks (V c main_v0)) (emb0_3 t b ch 0)).symm

/-- An index of a column is in point `t`'s block iff each coordinate is in the block's range on its axis. -/
theorem mem_blk0_2 (t : Fin cfg0.N) (i : S32x256x1.Idx) :
    i ∈ ((cfg0.win 2).blk t).view.set ↔ ∀ a : Fin 3, win0_2.index t a * S8x256x1.size a ≤ (i a).val ∧ (i a).val < win0_2.index t a * S8x256x1.size a + S8x256x1.size a := by
  show i ∈ ((View.whole main_v1_0).slice (win0_2.rect t)).set ↔ _
  rw [View.set_slice_whole, Rect.mem_set_unit]
  exact Iff.rfl
theorem mem_blk0_3 (t : Fin cfg0.N) (i : S32x256x1.Idx) :
    i ∈ ((cfg0.win 3).blk t).view.set ↔ ∀ a : Fin 3, win0_3.index t a * S8x256x1.size a ≤ (i a).val ∧ (i a).val < win0_3.index t a * S8x256x1.size a + S8x256x1.size a := by
  show i ∈ ((View.whole main_v1_1).slice (win0_3.rect t)).set ↔ _
  rw [View.set_slice_whole, Rect.mem_set_unit]
  exact Iff.rfl

/-- The four points' blocks tile each column: row `r` is in the block of point `r / 8`. -/
theorem cover0_2_all (i : S32x256x1.Idx) : ∃ t : Fin cfg0.N, (cfg0.win 2).flush t = true ∧ i ∈ ((cfg0.win 2).blk t).view.set := by
  have hi0 : (i 0).val < 32 := (i 0).isLt
  have hi1 : (i 1).val < 256 := (i 1).isLt
  have hi2 : (i 2).val < 1 := (i 2).isLt
  have ht : (i 0).val / 8 < grid0.N := by rw [N_0]; omega
  obtain ⟨-, -, -, -, -, -, e20, e21, e22, -⟩ := idx_facts0 (⟨(i 0).val / 8, ht⟩ : Fin cfg0.N)
  refine ⟨⟨(i 0).val / 8, ht⟩, flush0_2 _, ?_⟩
  rw [mem_blk0_2]
  intro a
  match a with
  | ⟨0, _⟩ =>
    show win0_2.index ⟨(i 0).val / 8, ht⟩ (0 : Fin 3) * 8 ≤ (i 0).val ∧ (i 0).val < win0_2.index ⟨(i 0).val / 8, ht⟩ (0 : Fin 3) * 8 + 8
    rw [e20]; show (i 0).val / 8 * 8 ≤ (i 0).val ∧ (i 0).val < (i 0).val / 8 * 8 + 8; omega
  | ⟨1, _⟩ =>
    show win0_2.index ⟨(i 0).val / 8, ht⟩ (1 : Fin 3) * 256 ≤ (i 1).val ∧ (i 1).val < win0_2.index ⟨(i 0).val / 8, ht⟩ (1 : Fin 3) * 256 + 256
    rw [e21]; omega
  | ⟨2, _⟩ =>
    show win0_2.index ⟨(i 0).val / 8, ht⟩ (2 : Fin 3) * 1 ≤ (i 2).val ∧ (i 2).val < win0_2.index ⟨(i 0).val / 8, ht⟩ (2 : Fin 3) * 1 + 1
    rw [e22]; omega
theorem cover0_3_all (i : S32x256x1.Idx) : ∃ t : Fin cfg0.N, (cfg0.win 3).flush t = true ∧ i ∈ ((cfg0.win 3).blk t).view.set := by
  have hi0 : (i 0).val < 32 := (i 0).isLt
  have hi1 : (i 1).val < 256 := (i 1).isLt
  have hi2 : (i 2).val < 1 := (i 2).isLt
  have ht : (i 0).val / 8 < grid0.N := by rw [N_0]; omega
  obtain ⟨-, -, -, -, -, -, -, -, -, e30, e31, e32⟩ := idx_facts0 (⟨(i 0).val / 8, ht⟩ : Fin cfg0.N)
  refine ⟨⟨(i 0).val / 8, ht⟩, flush0_3 _, ?_⟩
  rw [mem_blk0_3]
  intro a
  match a with
  | ⟨0, _⟩ =>
    show win0_3.index ⟨(i 0).val / 8, ht⟩ (0 : Fin 3) * 8 ≤ (i 0).val ∧ (i 0).val < win0_3.index ⟨(i 0).val / 8, ht⟩ (0 : Fin 3) * 8 + 8
    rw [e30]; show (i 0).val / 8 * 8 ≤ (i 0).val ∧ (i 0).val < (i 0).val / 8 * 8 + 8; omega
  | ⟨1, _⟩ =>
    show win0_3.index ⟨(i 0).val / 8, ht⟩ (1 : Fin 3) * 256 ≤ (i 1).val ∧ (i 1).val < win0_3.index ⟨(i 0).val / 8, ht⟩ (1 : Fin 3) * 256 + 256
    rw [e31]; omega
  | ⟨2, _⟩ =>
    show win0_3.index ⟨(i 0).val / 8, ht⟩ (2 : Fin 3) * 1 ≤ (i 2).val ∧ (i 2).val < win0_3.index ⟨(i 0).val / 8, ht⟩ (2 : Fin 3) * 1 + 1
    rw [e32]; omega

/-- After the call the sums' array holds the row sums of the input as the call found it, -/
theorem final0_2 (c : Dev nD) : (dat0 V c).arrAt 2 cfg0.N = sums (V c main_v0) :=
  (dat0 V c).arrAt_eq_of_cover 2 (sums (V c main_v0)) (fun t _ => flushed0_2_eq V c t) cover0_2_all
/-- and the maxima's array its row maxima. -/
theorem final0_3 (c : Dev nD) : (dat0 V c).arrAt 3 cfg0.N = peaks (V c main_v0) :=
  (dat0 V c).arrAt_eq_of_cover 3 (peaks (V c main_v0)) (fun t _ => flushed0_3_eq V c t) cover0_3_all

end Cert.KernelIdeal.Hand

end
-- ==== Proof.KIHost.lean ====
/-
  What the gate call finds, and what the program returns, in terms of the arguments.

  The first reshape reads the input as 32 × 256 rows of 1024 pixels. The pooling call leaves the rows' sums and maxima in
  two [32, 256, 1] columns; the two reshapes that follow read each as a [32, 256] matrix, entry (n, c) being entry
  (n, c, 0) of the column. No item before the gate call writes a weight matrix, so the gate call finds them as launched.
  The last reshape reads the [32, 256] gate matrix as the [32, 256, 1, 1] result, entry (n, j, 0, 0) being entry (n, j).
-/
import proofs.«177346_g2000607127200456_pallasbulk_51_10_alg».proof.Proof.KIRun
import proofs.«177346_g2000607127200456_pallasbulk_51_10_alg».proof.Proof.KIVal0
import proofs.«177346_g2000607127200456_pallasbulk_51_10_alg».proof.Proof.Gate
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The input read as rows of 1024 pixels. -/
abbrev rows (c : Dev nD) : S32x256x1024.Idx → EReal :=
  shapeCast S32x256x1024 (m ((c : Thread nD τ).loc main_arg0)) shapeCasts_S32x256x32x32_S32x256x1024

/-- The pooling call finds the reshaped input in its input array. -/
theorem W1_v0 (c : Dev nD) : W1 m ρ c (Proc.devRef .tc main_v0) = rows m c := by
  show StableHlo.after hostOps0 (W0 m ρ c) (Proc.devRef .tc main_v0) = _
  after_results
  rfl

/-- A reference no host operation writes and no call's output array holds what it held at launch, at the gate
    call's entry. -/
theorem W3_arg (c : Dev nD) (r : Ref sig .tc) (h0 : r ∉ hostOps0_W) (h1 : r ∉ hostOps1_W) (ha : r ≠ main_v1_0) (hb : r ≠ main_v1_1) :
    W3 m ρ c (Proc.devRef .tc r) = m ((c : Thread nD τ).loc r) :=
  calc W3 m ρ c (Proc.devRef .tc r)
    _ = W2 m ρ c (Proc.devRef .tc r) := StableHlo.after_of_writes_sub hostOps1 _ hostOps1_writes h1
    _ = W1 m ρ c (Proc.devRef .tc r) := W2_of_ne m ρ c r ha hb
    _ = W0 m ρ c (Proc.devRef .tc r) := StableHlo.after_of_writes_sub hostOps0 _ hostOps0_writes h0
    _ = m ((c : Thread nD τ).loc r) := rfl

theorem W3_arg1 (c : Dev nD) : W3 m ρ c (Proc.devRef .tc main_arg1) = m ((c : Thread nD τ).loc main_arg1) :=
  W3_arg m ρ c main_arg1 (by decide) (by decide) (by decide) (by decide)
theorem W3_arg2 (c : Dev nD) : W3 m ρ c (Proc.devRef .tc main_arg2) = m ((c : Thread nD τ).loc main_arg2) :=
  W3_arg m ρ c main_arg2 (by decide) (by decide) (by decide) (by decide)

/-- A [32, 256, 1] column read as a [32, 256] matrix. -/
theorem column_as_matrix (x : S32x256x1.Idx → EReal) (h : S32x256x1.ShapeCasts S32x256) (n : Fin 32) (ch : Fin 256) :
    shapeCast S32x256 x h (ix2 n ch) = x (ix3 n ch (0 : Fin 1)) :=
  shapeCast_apply x h _ _ (by
    rw [Shape.rowMajor_val_three, Shape.rowMajor_val_two]
    show (n.val * 256 + ch.val) * 1 + 0 = n.val * 256 + ch.val
    omega)

/-- A [32, 256] matrix read as a [32, 256, 1, 1] array. -/
theorem matrix_as_result (x : S32x256.Idx → EReal) (h : S32x256.ShapeCasts S32x256x1x1) (n : Fin 32) (j : Fin 256) (u v : Fin 1) :
    shapeCast S32x256x1x1 x h (ix4 n j u v) = x (ix2 n j) :=
  shapeCast_apply x h _ _ (by
    rw [Shape.rowMajor_val_two, Shape.rowMajor_val_four]
    show n.val * 256 + j.val = ((n.val * 256 + j.val) * 1 + u.val) * 1 + v.val
    omega)

/-- The gate call finds the rows' sums in its first input array, -/
theorem W3_v2_apply (c : Dev nD) (n : Fin 32) (ch : Fin 256) :
    (W3 m ρ c (Proc.devRef .tc main_v2) : S32x256.Idx → EReal) (ix2 n ch) = Cert.Gate.chanSum (rows m c) n ch := by
  have e : (W3 m ρ c (Proc.devRef .tc main_v2) : S32x256.Idx → EReal)
      = shapeCast S32x256 (W2 m ρ c (Proc.devRef .tc main_v1_0) : S32x256x1.Idx → EReal) shapeCasts_S32x256x1_S32x256 := by
    show StableHlo.after hostOps1 (W2 m ρ c) (Proc.devRef .tc main_v2) = _
    after_results
    rfl
  rw [e, column_as_matrix, W2_v1_0, final0_2]
  show sums (W1 m ρ c (Proc.devRef .tc main_v0)) (ix3 n ch (0 : Fin 1)) = _
  rw [W1_v0]
  rfl

/-- and the rows' maxima in its second. -/
theorem W3_v3_apply (c : Dev nD) (n : Fin 32) (ch : Fin 256) :
    (W3 m ρ c (Proc.devRef .tc main_v3) : S32x256.Idx → EReal) (ix2 n ch) = Cert.Gate.chanMax (rows m c) n ch := by
  have e : (W3 m ρ c (Proc.devRef .tc main_v3) : S32x256.Idx → EReal)
      = shapeCast S32x256 (W2 m ρ c (Proc.devRef .tc main_v1_1) : S32x256x1.Idx → EReal) shapeCasts_S32x256x1_S32x256 := by
    show StableHlo.after hostOps1 (W2 m ρ c) (Proc.devRef .tc main_v3) = _
    after_results
    rfl
  rw [e, column_as_matrix, W2_v1_1, final0_3]
  show peaks (W1 m ρ c (Proc.devRef .tc main_v0)) (ix3 n ch (0 : Fin 1)) = _
  rw [W1_v0]
  rfl

/-- The program's result is the gate call's output matrix, reshaped. -/
theorem W5_v5 (c : Dev nD) :
    (W5 m ρ c (Proc.devRef .tc main_v5) : S32x256x1x1.Idx → EReal)
      = shapeCast S32x256x1x1 (W4 m ρ c (Proc.devRef .tc main_v4) : S32x256.Idx → EReal) shapeCasts_S32x256_S32x256x1x1 := by
  show StableHlo.after hostOps2 (W4 m ρ c) (Proc.devRef .tc main_v5) = _
  after_results
  rfl

end Cert.KernelIdeal.Hand

end
-- ==== Proof.KPay1.lean ====
/-
  The second kernel body's stored matrix, read at an index.

  The body stacks the 32 rows of scaled sums over the 32 rows of maxima into a [64, 256] matrix P, forms
  H = max (P · w1ᵀ) 0 of shape [64, 16] and O = H · w2ᵀ of shape [64, 256] (both products contract the second axis of
  both operands, into a zero accumulator), and stores logistic (O[n, j] + O[32 + n, j]) at (n, j). Row n of P holds
  s[n, ·] · 2⁻¹⁰ and row 32 + n holds mx[n, ·]; since each row of H and of O depends on the same row of P only,

    O[n, j]      = Σ_r (max (Σ_c (s[n, c] · 2⁻¹⁰) · w1[r, c]) 0) · w2[j, r]
    O[32 + n, j] = Σ_r (max (Σ_c mx[n, c] · w1[r, c]) 0) · w2[j, r]

  and commuting each product puts the weights on the left, as the specification writes them.
-/
import proofs.«177346_g2000607127200456_pallasbulk_51_10_alg».proof.Proof.Gen.KernelIdeal.Skeleton
import proofs.«177346_g2000607127200456_pallasbulk_51_10_alg».proof.Proof.Gate
import Idealize.ShloMosaic.Lib.ValueLayout

noncomputable section

open scoped BigOperators

namespace Cert.KernelIdeal.Pay

open Idealize.ShloMosaic Idealize.ShloMosaic.ValueIdx Cert.KernelIdeal

variable [Cert.KernelIdeal.Facts]

/-! ## The stack of two [32, 256] matrices -/

/-- Row n of the stack, n below 32, is row n of the upper matrix. -/
theorem stack_upper {α : Type} (p q : S32x256.Idx → α) (h : Shape.Concatenates [S32x256, S32x256] S64x256 0)
    (n : Fin 32) (c : Fin 256) :
    concatenate S64x256 0 [⟨S32x256, p⟩, ⟨S32x256, q⟩] h (ix2 (⟨n.val, by omega⟩ : Fin 64) c) = p (ix2 n c) :=
  concatenate_pair_apply_left _ p q h _ rfl (ix2 n c) (fun b => by
    match b with
    | ⟨0, _⟩ => rfl
    | ⟨1, _⟩ => rfl)

/-- Row 32 + n of the stack is row n of the lower matrix. -/
theorem stack_lower {α : Type} (p q : S32x256.Idx → α) (h : Shape.Concatenates [S32x256, S32x256] S64x256 0)
    (n : Fin 32) (c : Fin 256) :
    concatenate S64x256 0 [⟨S32x256, p⟩, ⟨S32x256, q⟩] h (ix2 (⟨32 + n.val, by omega⟩ : Fin 64) c) = q (ix2 n c) :=
  concatenate_pair_apply_right _ p q h _ rfl rfl (ix2 n c) (fun b hb => by
    match b, hb with
    | ⟨0, _⟩, hb => exact absurd rfl hb
    | ⟨1, _⟩, _ => rfl) (by show n.val + 32 = 32 + n.val; omega)

/-! ## The two products, each contracting the second axis of both operands -/

/-- The dimension numbers of the first product: [64, 256] by [16, 256] into [64, 16]. -/
abbrev D1 : DotDims S64x256 S16x256 S64x16 := dot_S64x256_S16x256_S64x16_1_1_0_0_n_n
/-- The dimension numbers of the second product: [64, 16] by [256, 16] into [64, 256]. -/
abbrev D2 : DotDims S64x16 S256x16 S64x256 := dot_S64x16_S256x16_S64x256_1_1_0_0_n_n

theorem D1_lhs0 (i : S64x16.Idx) (q : D1.contr.Idx) : (D1.lhsIdx i q 0).val = (i 0).val := by
  unfold DotDims.lhsIdx
  rw [dif_neg (show ¬(0 : Fin S64x256.rank) ∈ D1.lhsBatch by decide),
    dif_pos (show (0 : Fin S64x256.rank) ∈ D1.lhsNonContracting by decide)]
  rfl
theorem D1_lhs1 (i : S64x16.Idx) (q : D1.contr.Idx) : (D1.lhsIdx i q 1).val = (q ⟨0, by decide⟩).val :=
  D1.lhsIdx_val_of_single rfl i q
theorem D1_rhs0 (i : S64x16.Idx) (q : D1.contr.Idx) : (D1.rhsIdx i q 0).val = (i 1).val := by
  unfold DotDims.rhsIdx
  rw [dif_neg (show ¬(0 : Fin S16x256.rank) ∈ D1.rhsBatch by decide),
    dif_pos (show (0 : Fin S16x256.rank) ∈ D1.rhsNonContracting by decide)]
  rfl
theorem D1_rhs1 (i : S64x16.Idx) (q : D1.contr.Idx) : (D1.rhsIdx i q 1).val = (q ⟨0, by decide⟩).val :=
  D1.rhsIdx_val_of_single rfl i q

/-- The first product into the zero accumulator, at (i, r): the sum over the 256 shared columns. -/
theorem product1_apply (p : FVec Ideal S64x256 .f32) (w : FVec Ideal S16x256 .f32) (i : Fin 64) (r : Fin 16) :
    matmul D1 none p w (constant (F := Ideal) S64x16 .f32 0x00000000#32) (ix2 i r)
      = ∑ c : Fin 256, p (ix2 i c) * w (ix2 r c) := by
  simp only [matmul]
  rw [Ideal.matmul_constant_zero_apply, ← Equiv.sum_comp (contrEquiv1 D1 256 rfl rfl).symm]
  refine Finset.sum_congr rfl fun k _ => ?_
  have hk := contrEquiv1_symm_val D1 256 rfl rfl k
  have el : D1.lhsIdx (ix2 i r) ((contrEquiv1 D1 256 rfl rfl).symm k) = ix2 i k := funext fun a => Fin.ext (by
    match a with
    | ⟨0, _⟩ => exact D1_lhs0 _ _
    | ⟨1, _⟩ => exact (D1_lhs1 _ _).trans hk)
  have er : D1.rhsIdx (ix2 i r) ((contrEquiv1 D1 256 rfl rfl).symm k) = ix2 r k := funext fun a => Fin.ext (by
    match a with
    | ⟨0, _⟩ => exact D1_rhs0 _ _
    | ⟨1, _⟩ => exact (D1_rhs1 _ _).trans hk)
  rw [el, er]

theorem D2_lhs0 (i : S64x256.Idx) (q : D2.contr.Idx) : (D2.lhsIdx i q 0).val = (i 0).val := by
  unfold DotDims.lhsIdx
  rw [dif_neg (show ¬(0 : Fin S64x16.rank) ∈ D2.lhsBatch by decide),
    dif_pos (show (0 : Fin S64x16.rank) ∈ D2.lhsNonContracting by decide)]
  rfl
theorem D2_lhs1 (i : S64x256.Idx) (q : D2.contr.Idx) : (D2.lhsIdx i q 1).val = (q ⟨0, by decide⟩).val :=
  D2.lhsIdx_val_of_single rfl i q
theorem D2_rhs0 (i : S64x256.Idx) (q : D2.contr.Idx) : (D2.rhsIdx i q 0).val = (i 1).val := by
  unfold DotDims.rhsIdx
  rw [dif_neg (show ¬(0 : Fin S256x16.rank) ∈ D2.rhsBatch by decide),
    dif_pos (show (0 : Fin S256x16.rank) ∈ D2.rhsNonContracting by decide)]
  rfl
theorem D2_rhs1 (i : S64x256.Idx) (q : D2.contr.Idx) : (D2.rhsIdx i q 1).val = (q ⟨0, by decide⟩).val :=
  D2.rhsIdx_val_of_single rfl i q

/-- The second product into the zero accumulator, at (i, j): the sum over the 16 shared columns. -/
theorem product2_apply (g : FVec Ideal S64x16 .f32) (w : FVec Ideal S256x16 .f32) (i : Fin 64) (j : Fin 256) :
    matmul D2 none g w (constant (F := Ideal) S64x256 .f32 0x00000000#32) (ix2 i j)
      = ∑ r : Fin 16, g (ix2 i r) * w (ix2 j r) := by
  simp only [matmul]
  rw [Ideal.matmul_constant_zero_apply, ← Equiv.sum_comp (contrEquiv1 D2 16 rfl rfl).symm]
  refine Finset.sum_congr rfl fun k _ => ?_
  have hk := contrEquiv1_symm_val D2 16 rfl rfl k
  have el : D2.lhsIdx (ix2 i j) ((contrEquiv1 D2 16 rfl rfl).symm k) = ix2 i k := funext fun a => Fin.ext (by
    match a with
    | ⟨0, _⟩ => exact D2_lhs0 _ _
    | ⟨1, _⟩ => exact (D2_lhs1 _ _).trans hk)
  have er : D2.rhsIdx (ix2 i j) ((contrEquiv1 D2 16 rfl rfl).symm k) = ix2 j k := funext fun a => Fin.ext (by
    match a with
    | ⟨0, _⟩ => exact D2_rhs0 _ _
    | ⟨1, _⟩ => exact (D2_rhs1 _ _).trans hk)
  rw [el, er]

/-! ## One row through the two layers -/

/-- Row i of the second product of the clipped first product is the specification's two layers applied to row i of the
    stacked matrix: each product is the sum over its shared columns, the clip is `max · 0`, and every product commutes. -/
theorem layers_row (P : FVec Ideal S64x256 .f32) (w1 : FVec Ideal S16x256 .f32) (w2 : FVec Ideal S256x16 .f32)
    (i : Fin 64) (j : Fin 256) :
    matmul D2 none
        (maximumf (matmul D1 none P w1 (constant (F := Ideal) S64x16 .f32 0x00000000#32))
          (broadcast S64x16 (Scalar.ofBits (F := Ideal) .f32 0x00000000#32)))
        w2 (constant (F := Ideal) S64x256 .f32 0x00000000#32) (ix2 i j)
      = Cert.Gate.outp w2 (Cert.Gate.hidden w1 (fun c => P (ix2 i c))) j := by
  refine (product2_apply _ w2 i j).trans ?_
  unfold Cert.Gate.outp Cert.Gate.hidden
  refine Finset.sum_congr rfl fun r _ => ?_
  refine (mul_comm _ _).trans (congrArg (fun t => w2 (ix2 j r) * t) ?_)
  show max (matmul D1 none P w1 (constant (F := Ideal) S64x16 .f32 0x00000000#32) (ix2 i r))
      (Ideal.ofBits .f32 0x00000000#32) = _
  rw [product1_apply, Ideal.ofBits_zero_f32]
  exact congrArg (fun t => max t 0) (Finset.sum_congr rfl fun c _ => mul_comm _ _)

/-! ## The stored matrix -/

/-- The logistic of the sum of the upper and the lower 32 rows of a [64, 256] matrix, at (n, j): the logistic of the
    matrix at (n, j) plus the matrix at (32 + n, j). -/
theorem halves_apply (O : FVec Ideal S64x256 .f32) (h0 : S64x256.Slices ![0, 0] S32x256)
    (h32 : S64x256.Slices ![32, 0] S32x256) (n : Fin 32) (j : Fin 256) :
    logistic (addf (extractStridedSlice S32x256 ![0, 0] O h0) (extractStridedSlice S32x256 ![32, 0] O h32)) (ix2 n j)
      = Ideal.logistic (O (ix2 (⟨n.val, by omega⟩ : Fin 64) j) + O (ix2 (⟨32 + n.val, by omega⟩ : Fin 64) j)) :=
  congrArg Ideal.logistic (congrArg₂ (· + ·)
    (slice2_axis0_apply 0 O h0 n j ⟨n.val, by omega⟩ (Nat.zero_add _).symm)
    (slice2_axis0_apply 32 O h32 n j ⟨32 + n.val, by omega⟩ rfl))

/-- The stored gate at (n, j): the logistic of the two layers' output for the scaled sums plus that for the maxima. -/
theorem pay1_apply (s mx : Vec Ideal S32x256 .f32) (w1 : Vec Ideal S16x256 .f32) (w2 : Vec Ideal S256x16 .f32)
    (n : Fin 32) (j : Fin 256) :
    Gen.k1_pay1 (F := Ideal) s mx w1 w2 (ix2 n j)
      = Ideal.logistic (Cert.Gate.outp w2 (Cert.Gate.hidden w1 (fun c => s (ix2 n c) * Cert.Gate.scale)) j
          + Cert.Gate.outp w2 (Cert.Gate.hidden w1 (fun c => mx (ix2 n c))) j) := by
  unfold Gen.k1_pay1
  refine (halves_apply _ _ _ n j).trans ?_
  refine congrArg Ideal.logistic (congrArg₂ (· + ·) ?_ ?_)
  · refine (layers_row _ w1 w2 ⟨n.val, by omega⟩ j).trans ?_
    refine congrArg (fun p => Cert.Gate.outp w2 (Cert.Gate.hidden w1 p) j) (funext fun c => ?_)
    refine (stack_upper _ _ _ n c).trans ?_
    show shapeCast S32x256 s _ (ix2 n c) * Ideal.ofBits .f32 0x3A800000#32 = s (ix2 n c) * Cert.Gate.scale
    rw [shapeCast_self]
    rfl
  · refine (layers_row _ w1 w2 ⟨32 + n.val, by omega⟩ j).trans ?_
    refine congrArg (fun p => Cert.Gate.outp w2 (Cert.Gate.hidden w1 p) j) (funext fun c => ?_)
    refine (stack_lower _ _ _ n c).trans ?_
    rw [shapeCast_self]

end Cert.KernelIdeal.Pay

end
-- ==== Proof.KIVal1.lean ====
/-
  What the gate call leaves in its output array.

  The call has one point, and each of its five blocks is a whole array: it reads the [32, 256] matrices of row sums
  and row maxima and the two weight matrices, and writes the [32, 256] gate matrix. A block's element (n, j) is the
  array's element (n, j), so the one point writes, at every (n, j), the body's stored value there: the logistic of the
  two layers' output for the scaled sums of image n plus that for its maxima, at channel j. The one block covers the
  array, so after the call the array is that function everywhere.
-/
import proofs.«177346_g2000607127200456_pallasbulk_51_10_alg».proof.Proof.KI1Body
import proofs.«177346_g2000607127200456_pallasbulk_51_10_alg».proof.Proof.KPay1
import proofs.«177346_g2000607127200456_pallasbulk_51_10_alg».proof.Proof.Gate
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The gate matrix of a [32, 256] matrix of row sums `s`, one of row maxima `mx` and the two weight matrices: at (n, j)
    the logistic of the two layers' output for the scaled sums of image n plus that for its maxima, at channel j. -/
def gateOf (s mx : S32x256.Idx → EReal) (w1 : S16x256.Idx → EReal) (w2 : S256x16.Idx → EReal) : S32x256.Idx → EReal :=
  fun i => Ideal.logistic (Cert.Gate.outp w2 (Cert.Gate.hidden w1 (fun ch => s (ix2 (i 0) ch) * Cert.Gate.scale)) (i 1)
    + Cert.Gate.outp w2 (Cert.Gate.hidden w1 (fun ch => mx (ix2 (i 0) ch))) (i 1))

theorem gateOf_apply (s mx : S32x256.Idx → EReal) (w1 : S16x256.Idx → EReal) (w2 : S256x16.Idx → EReal) (n : Fin 32) (j : Fin 256) :
    gateOf s mx w1 w2 (ix2 n j)
      = Ideal.logistic (Cert.Gate.outp w2 (Cert.Gate.hidden w1 (fun ch => s (ix2 n ch) * Cert.Gate.scale)) j
        + Cert.Gate.outp w2 (Cert.Gate.hidden w1 (fun ch => mx (ix2 n ch))) j) := rfl

/-- Of the row sums and row maxima of an input `x`, it is the specification's gate of `x`. -/
theorem gateOf_pools (x : S32x256x1024.Idx → EReal) (w1 : S16x256.Idx → EReal) (w2 : S256x16.Idx → EReal) :
    gateOf (fun i => Cert.Gate.chanSum x (i 0) (i 1)) (fun i => Cert.Gate.chanMax x (i 0) (i 1)) w1 w2
      = Cert.Gate.gate2 x w1 w2 := rfl

/-- The gate matrix of the arrays as the call finds them: sums in `main_v2`, maxima in `main_v3`, the first weights in
    `main_arg1`, the second in `main_arg2`. -/
abbrev gate1 (c : Dev nD) : S32x256.Idx → EReal :=
  gateOf (V c main_v2) (V c main_v3) (V c main_arg1) (V c main_arg2)

/-! ## A block's element is the array's element at the same coordinates -/

theorem emb1_0 (t : Fin cfg1.N) (a : Fin 32) (b : Fin 256) :
    (((cfg1.win 0).blk t).view.emb (ix2 a b) : S32x256.Idx) = ix2 a b := by
  funext d; apply Fin.ext
  match d with
  | ⟨0, _⟩ => show 0 * 32 + 1 * a.val = a.val; omega
  | ⟨1, _⟩ => show 0 * 256 + 1 * b.val = b.val; omega

theorem emb1_1 (t : Fin cfg1.N) (a : Fin 32) (b : Fin 256) :
    (((cfg1.win 1).blk t).view.emb (ix2 a b) : S32x256.Idx) = ix2 a b := by
  funext d; apply Fin.ext
  match d with
  | ⟨0, _⟩ => show 0 * 32 + 1 * a.val = a.val; omega
  | ⟨1, _⟩ => show 0 * 256 + 1 * b.val = b.val; omega

theorem emb1_2 (t : Fin cfg1.N) (a : Fin 16) (b : Fin 256) :
    (((cfg1.win 2).blk t).view.emb (ix2 a b) : S16x256.Idx) = ix2 a b := by
  funext d; apply Fin.ext
  match d with
  | ⟨0, _⟩ => show 0 * 16 + 1 * a.val = a.val; omega
  | ⟨1, _⟩ => show 0 * 256 + 1 * b.val = b.val; omega

theorem emb1_3 (t : Fin cfg1.N) (a : Fin 256) (b : Fin 16) :
    (((cfg1.win 3).blk t).view.emb (ix2 a b) : S256x16.Idx) = ix2 a b := by
  funext d; apply Fin.ext
  match d with
  | ⟨0, _⟩ => show 0 * 256 + 1 * a.val = a.val; omega
  | ⟨1, _⟩ => show 0 * 16 + 1 * b.val = b.val; omega

theorem emb1_4 (t : Fin cfg1.N) (a : Fin 32) (b : Fin 256) :
    (((cfg1.win 4).blk t).view.emb (ix2 a b) : S32x256.Idx) = ix2 a b := by
  funext d; apply Fin.ext
  match d with
  | ⟨0, _⟩ => show 0 * 32 + 1 * a.val = a.val; omega
  | ⟨1, _⟩ => show 0 * 256 + 1 * b.val = b.val; omega

/-! ## Each input block is its whole array -/

theorem blk1_0 (c : Dev nD) (t : Fin cfg1.N) : (iblk1 V c 0 t : S32x256.Idx → EReal) = V c main_v2 := by
  funext y
  obtain ⟨a, b, rfl⟩ : ∃ (a : Fin 32) (b : Fin 256), y = ix2 a b := ⟨y 0, y 1, eq_ix2 y⟩
  show V c main_v2 (((cfg1.win 0).blk t).view.emb (ix2 a b)) = _
  rw [emb1_0]

theorem blk1_1 (c : Dev nD) (t : Fin cfg1.N) : (iblk1 V c 1 t : S32x256.Idx → EReal) = V c main_v3 := by
  funext y
  obtain ⟨a, b, rfl⟩ : ∃ (a : Fin 32) (b : Fin 256), y = ix2 a b := ⟨y 0, y 1, eq_ix2 y⟩
  show V c main_v3 (((cfg1.win 1).blk t).view.emb (ix2 a b)) = _
  rw [emb1_1]

theorem blk1_2 (c : Dev nD) (t : Fin cfg1.N) : (iblk1 V c 2 t : S16x256.Idx → EReal) = V c main_arg1 := by
  funext y
  obtain ⟨a, b, rfl⟩ : ∃ (a : Fin 16) (b : Fin 256), y = ix2 a b := ⟨y 0, y 1, eq_ix2 y⟩
  show V c main_arg1 (((cfg1.win 2).blk t).view.emb (ix2 a b)) = _
  rw [emb1_2]

theorem blk1_3 (c : Dev nD) (t : Fin cfg1.N) : (iblk1 V c 3 t : S256x16.Idx → EReal) = V c main_arg2 := by
  funext y
  obtain ⟨a, b, rfl⟩ : ∃ (a : Fin 256) (b : Fin 16), y = ix2 a b := ⟨y 0, y 1, eq_ix2 y⟩
  show V c main_arg2 (((cfg1.win 3).blk t).view.emb (ix2 a b)) = _
  rw [emb1_3]

/-! ## What the point writes back, the cover, and the array after the call -/

/-- WHAT THE POINT WRITES BACK is the gate matrix of the arrays as the call finds them, read through the block. -/
theorem flushed1_4_eq (c : Dev nD) (t : Fin cfg1.N) :
    (dat1 V c).flushed 4 t = ((cfg1.win 4).blk t).view.read (Elt Ideal) (gate1 V c) := by
  show (cfg1.win 4).cut (grid1.coords t) ((dat1 V c).after 4 t) = _
  rw [after1_4]
  unfold out1_4
  rw [View.canon_unit_zero hz2]
  simp only [View.ld_unit_zero (S := S32x256) hz2, View.ld_unit_zero (S := S16x256) hz2,
    View.ld_unit_zero (S := S256x16) hz2]
  funext j
  obtain ⟨n, jj, rfl⟩ : ∃ (n : Fin 32) (jj : Fin 256), j = ix2 n jj := ⟨j 0, j 1, eq_ix2 j⟩
  show k1_pay1 (F := Ideal) (iblk1 V c 0 t) (iblk1 V c 1 t) (iblk1 V c 2 t) (iblk1 V c 3 t) (ix2 n jj)
    = gate1 V c (((cfg1.win 4).blk t).view.emb (ix2 n jj))
  refine (Cert.KernelIdeal.Pay.pay1_apply _ _ _ _ n jj).trans ?_
  rw [emb1_4, blk1_0, blk1_1, blk1_2, blk1_3]
  exact (gateOf_apply _ _ _ _ n jj).symm

/-- An index of the array is in the point's block iff each coordinate is in the block's range on its axis. -/
theorem mem_blk1_4 (t : Fin cfg1.N) (i : S32x256.Idx) :
    i ∈ ((cfg1.win 4).blk t).view.set ↔ ∀ a : Fin 2, win1_4.index t a * S32x256.size a ≤ (i a).val
      ∧ (i a).val < win1_4.index t a * S32x256.size a + S32x256.size a := by
  show i ∈ ((View.whole main_v4).slice (win1_4.rect t)).set ↔ _
  rw [View.set_slice_whole, Rect.mem_set_unit]
  exact Iff.rfl

/-- The one point's block covers the array. -/
theorem cover1_4_arr (i : S32x256.Idx) :
    ∃ t : Fin cfg1.N, (cfg1.win 4).flush t = true ∧ i ∈ ((cfg1.win 4).blk t).view.set := by
  refine ⟨t1_0, flush1_4 t1_0, ?_⟩
  rw [mem_blk1_4]
  intro a
  have h0 : (i 0).val < 32 := idx2_lt0 i
  have h1 : (i 1).val < 256 := idx2_lt1 i
  match a with
  | ⟨0, _⟩ => show 0 * 32 ≤ (i 0).val ∧ (i 0).val < 0 * 32 + 32; omega
  | ⟨1, _⟩ => show 0 * 256 ≤ (i 1).val ∧ (i 1).val < 0 * 256 + 256; omega

/-- THE ARRAY after the call: the gate matrix of the sums, the maxima and the two weight matrices as the call finds
    them. -/
theorem final1_4 (c : Dev nD) :
    (dat1 V c).arrAt 4 cfg1.N = gateOf (V c main_v2) (V c main_v3) (V c main_arg1) (V c main_arg2) :=
  (dat1 V c).arrAt_eq_of_cover 4 (gate1 V c) (fun t _ => flushed1_4_eq V c t) (cover1_4_arr)

end Cert.KernelIdeal.Hand

end
-- ==== Proof.KIValue.lean ====
/-
  The idealized kernel returns the gate of its arguments.

  The gate call's output matrix is the gate of what the call finds: the weight matrices as launched, the rows' sums and
  maxima of the reshaped input. The last reshape hands that matrix out as the [32, 256, 1, 1] result.
-/
import proofs.«177346_g2000607127200456_pallasbulk_51_10_alg».proof.Proof.KIHost
import proofs.«177346_g2000607127200456_pallasbulk_51_10_alg».proof.Proof.KIVal1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- What the gate call finds in its four input arrays. -/
theorem A3_v2 (c : Dev nD) : (A3 m ρ c main_v2 : S32x256.Idx → EReal) = fun i => Cert.Gate.chanSum (rows m c) (i 0) (i 1) := by
  funext i
  obtain ⟨n, ch, rfl⟩ : ∃ (n : Fin 32) (ch : Fin 256), i = ix2 n ch := ⟨i 0, i 1, eq_ix2 i⟩
  exact W3_v2_apply m ρ c n ch
theorem A3_v3 (c : Dev nD) : (A3 m ρ c main_v3 : S32x256.Idx → EReal) = fun i => Cert.Gate.chanMax (rows m c) (i 0) (i 1) := by
  funext i
  obtain ⟨n, ch, rfl⟩ : ∃ (n : Fin 32) (ch : Fin 256), i = ix2 n ch := ⟨i 0, i 1, eq_ix2 i⟩
  exact W3_v3_apply m ρ c n ch
theorem A3_arg1 (c : Dev nD) : A3 m ρ c main_arg1 = m ((c : Thread nD τ).loc main_arg1) := W3_arg1 m ρ c
theorem A3_arg2 (c : Dev nD) : A3 m ρ c main_arg2 = m ((c : Thread nD τ).loc main_arg2) := W3_arg2 m ρ c

/-- The gate call's output matrix after the call: the gate of the reshaped input and the weight matrices. -/
theorem W4_v4 (c : Dev nD) :
    (W4 m ρ c (Proc.devRef .tc main_v4) : S32x256.Idx → EReal)
      = Cert.Gate.gate2 (rows m c) (m ((c : Thread nD τ).loc main_arg1)) (m ((c : Thread nD τ).loc main_arg2)) := by
  have e := (W4_arr m ρ c 4).trans (final1_4 (A3 m ρ) c)
  rw [A3_v2, A3_v3, A3_arg1, A3_arg2] at e
  exact e.trans (gateOf_pools (rows m c) _ _)

/-- The result buffer at the return: the gate of the reshaped input and the two weight matrices. -/
theorem value_v5 (c : Dev nD) :
    (W5 m ρ c (Proc.devRef .tc main_v5) : S32x256x1x1.Idx → EReal)
      = Cert.Gate.gate4 (rows m c) (m ((c : Thread nD τ).loc main_arg1)) (m ((c : Thread nD τ).loc main_arg2)) := by
  rw [W5_v5, W4_v4]
  funext i
  obtain ⟨n, j, u, v, rfl⟩ : ∃ (n : Fin 32) (j : Fin 256) (u v : Fin 1), i = ix4 n j u v := ⟨i 0, i 1, i 2, i 3, eq_ix4 i⟩
  rw [matrix_as_result]
  rfl

/-- THE VALUE RUN: every execution of the idealized kernel terminates with its result at the gate of its arguments, the
    arguments unchanged. -/
theorem run_value : θ_run defs (onTc (τ := τ) (main (F := Ideal))) ⟨m, fun _ => 0, ρ⟩ (fun r => ∀ c : Dev nD,
      r.2.mem ((c.tc : Thread nD τ).loc main_v5)
          = Cert.Gate.gate4 (rows m c) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v5 (by decide))).trans (value_v5 m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Hand

end
-- ==== Proof.RefPiece.lean ====
/-
  What one grid point leaves in the output's staging buffer, as a term of the point's three input blocks.

  At every point the body first zeroes the first scratch column and fills the second with −∞, then adds the block's row
  sums into the first and raises the second to the block's row maxima, and last stores, over the whole output block, the
  final payload of the two scratch columns and the two weight blocks. Each load reads back, whole, what the last store to
  its buffer left; so the output block is the final payload of (the accumulation payloads of the block and the initial
  columns) and the weights. Stated for any float values.
-/
import proofs.«177346_g2000607127200456_pallasbulk_51_10_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A load through the whole-shape rectangle of what a store through it, LAST, left reads that store's payload,
    whatever the earlier stores were. -/
theorem readCov_cons_whole {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

theorem piece (c : Dev nD) (i : grid0.Coords) (arg2 : Memref sig .tc .vmem S1x256x1024 .f32) (harg2 : arg2.IsWhole) (arg3 : Memref sig .tc .vmem S16x256 .f32) (harg3 : arg3.IsWhole) (arg4 : Memref sig .tc .vmem S256x16 .f32) (harg4 : arg4.IsWhole) (arg5 : Memref sig .tc .vmem S1x256x1 .f32) (harg5 : arg5.IsWhole) (arg6 : Memref sig .tc .vmem S256x1 .f32) (harg6 : arg6.IsWhole) (arg7 : Memref sig .tc .vmem S256x1 .f32) (harg7 : arg7.IsWhole) (hc0 : cond0_0 i) (hc1 : cond0_1 i)
    (x0 : Vec F S1x256x1024 .f32) (x1 : Vec F S16x256 .f32) (x2 : Vec F S256x16 .f32) :
    out0_A_3 c i arg2 harg2 arg3 harg3 arg4 harg4 arg5 harg5 arg6 harg6 arg7 harg7 hc0 hc1 x0 x1 x2
      = k0_pay6 (k0_pay4 x0 k0_pay1) (k0_pay5 x0 k0_pay2) x1 x2 := by
  unfold out0_A_3
  rw [View.read_writes_eq_canon _ _ _ (cover0_A_3 c i arg2 harg2 arg3 harg3 arg4 harg4 arg5 harg5 arg6 harg6 arg7 harg7 hc0 hc1 x0 x1 x2)]
  unfold kernelRun0_A
  dsimp only
  sl_unfold_words
  rw [View.canon_unit_zero hz3]
  simp only [readCov_cons_whole (S := S256x1) _ hz2, View.readCov_unit_zero (S := S256x1) _ hz2, View.readAt_eq_ld, harg2.read_unread, harg3.read_unread, harg4.read_unread,
    View.ld_unit_zero (S := S1x256x1024) hz3, View.ld_unit_zero (S := S16x256) hz2, View.ld_unit_zero (S := S256x16) hz2]

end Cert.ReferenceIdeal.RefValue

end
-- ==== Proof.RefLayout.lean ====
/-
  Layout operations of column vectors read at an index given by coordinates.

  A column of `a` entries is kept as an `[a, 1]` matrix. Casting a vector `[a]` to the column `[a, 1]`, a column
  `[a, 1]` broadcast over `b` columns, and an `[a, b, 1]` array cast to `[a, b, 1, 1]` each read the operand at the
  index with the same leading coordinates; a unit axis has the one coordinate `0`. A matrix summed or maximized along its
  second axis reads, at row `r` with the dropped coordinate `k` put back, the matrix at `(r, k)`.
-/
import Idealize.ShloMosaic.Lib.ValueLayout
import Idealize.ShloMosaic.PureOps.Ideal.Laws

namespace Cert.RefLayout

open Idealize.ShloMosaic Idealize.ShloMosaic.ValueIdx

variable {α : Type}

/-- A vector `[a]` cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array cast to `[a, b, 1, 1]` reads, at `(i, j, u, v)`, the operand at `(i, j, 0)`. -/
theorem shapeCast_ab1_ab11_apply {a b : ℕ} (x : (⟨3, ![a, b, 1]⟩ : Shape).Idx → α)
    (h : (⟨3, ![a, b, 1]⟩ : Shape).ShapeCasts ⟨4, ![a, b, 1, 1]⟩) (i : Fin a) (j : Fin b) (u v : Fin 1) :
    shapeCast ⟨4, ![a, b, 1, 1]⟩ x h (ix4 i j u v) = x (ix3 i j (0 : Fin 1)) :=
  shapeCast_apply x h _ _ (by
    have hu : u.val = 0 := by omega
    have hv : v.val = 0 := by omega
    rw [Shape.rowMajor_val_four, Shape.rowMajor_val_three]
    show (i.val * b + j.val) * 1 + 0 = ((i.val * b + j.val) * 1 + u.val) * 1 + v.val
    rw [hu, hv, Nat.mul_one, Nat.add_zero, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[m, n]` matrix with coordinate `k` put back on the dropped second axis is `(r, k)`. -/
theorem lift_ix1_axis1 {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

end Cert.RefLayout
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.RefPayload.lean ====
/-
  The body's arithmetic read at an index, on the extended reals.

  The first scratch column, zeroed and then increased by the row sums of the point's `[1, 256, 1024]` block, holds at
  row `r` the sum `Σ_k x[0, r, k]` (`0 + a = a`); the second, filled with −∞ and then raised to the row maxima, holds
  `max_k x[0, r, k]` from −∞ (`max ⊥ a = a`). The last payload puts the scaled sums and the maxima side by side as the
  two columns of a `[256, 2]` matrix (a select on the column number), multiplies by the first weight matrix, clips
  below at `0`, multiplies by the second, adds the two columns of the product and applies the logistic function: at
  channel `j` this is the gate of the block's image.
-/
import proofs.«177346_g2000607127200456_pallasbulk_51_10_alg».proof.Proof.Gate
import proofs.«177346_g2000607127200456_pallasbulk_51_10_alg».proof.Proof.RefLayout
import proofs.«177346_g2000607127200456_pallasbulk_51_10_alg».proof.Proof.LibPlainProduct
import proofs.«177346_g2000607127200456_pallasbulk_51_10_alg».proof.Proof.Gen.ReferenceIdeal.Skeleton

noncomputable section

open scoped BigOperators

namespace Cert.ReferenceIdeal.RefValue

open Idealize.ShloMosaic Idealize.ShloMosaic.ValueIdx
open Cert.ReferenceIdeal Cert.ReferenceIdeal.Gen Cert.RefLayout

/-- The word of −∞ is the bottom of the extended reals. -/
theorem ofBits_negInf : (Ideal.ofBits .f32 0xFF800000#32 : EReal) = ⊥ := by simp [Ideal.ofBits, Ideal.ieee]

/-- The zeroed column holds `0` in every row. -/
theorem zeroCol_apply (r : Fin 256) (u : Fin 1) : (k0_pay1 (F := Ideal)) (ix2 r u) = 0 := by
  unfold k0_pay1
  rw [shapeCast_self]
  exact Ideal.ofBits_zero_f32

/-- The column filled with −∞ holds `⊥` in every row. -/
theorem botCol_apply (r : Fin 256) (u : Fin 1) : (k0_pay2 (F := Ideal)) (ix2 r u) = ⊥ := by
  unfold k0_pay2
  rw [shapeCast_self]
  exact ofBits_negInf

/-- The block viewed as a `[256, 1024]` matrix reads `(r, k)` at `(0, r, k)`. -/
theorem rows_apply (x0 : Vec Ideal S1x256x1024 .f32) (r : Fin 256) (k : Fin 1024) :
    k0_pay3 x0 (ix2 r k) = x0 (ix3 (0 : Fin 1) r k) := by
  unfold k0_pay3
  exact shapeCast_1ab_ab_apply x0 _ r k

/-- The first scratch column after the point's accumulation: row `r` holds the sum of the block's row `r`. -/
theorem sumCol_apply (x0 : Vec Ideal S1x256x1024 .f32) (r : Fin 256) (u : Fin 1) :
    k0_pay4 x0 (k0_pay1 (F := Ideal)) (ix2 r u) = ∑ k : Fin 1024, x0 (ix3 (0 : Fin 1) r k) := by
  unfold k0_pay4
  dsimp only
  rw [shapeCast_self, addf_apply, zeroCol_apply, zero_add, shapeCast_a_a1_apply]
  refine (Ideal.multiReduction_add_single (k0_pay3 x0) _ reduces_S256x1024_S256 _ _ (ix1 r)).trans ?_
  refine Finset.sum_congr rfl fun k _ => ?_
  rw [lift_ix1_axis1]
  exact rows_apply x0 r ⟨k.val, k.isLt⟩

/-- The second scratch column after the point's accumulation: row `r` holds the maximum of the block's row `r`, from −∞. -/
theorem maxCol_apply (x0 : Vec Ideal S1x256x1024 .f32) (r : Fin 256) (u : Fin 1) :
    k0_pay5 x0 (k0_pay2 (F := Ideal)) (ix2 r u)
      = (Finset.univ : Finset (Fin 1024)).fold max ⊥ (fun k => x0 (ix3 (0 : Fin 1) r k)) := by
  unfold k0_pay5
  dsimp only
  rw [shapeCast_self, maximumf_apply, botCol_apply, max_bot_left, shapeCast_a_a1_apply]
  refine (Ideal.multiReduction_maximumf_single (k0_pay3 x0) _ reduces_S256x1024_S256 _ _ (ix1 r)).trans ?_
  have hf : (k0_pay3 x0 ∘ reduces_S256x1024_S256.lift (ix1 r)) = fun k : Fin 1024 => x0 (ix3 (0 : Fin 1) r k) :=
    funext fun k => by
      show k0_pay3 x0 (reduces_S256x1024_S256.lift (ix1 r) k) = _
      rw [lift_ix1_axis1]
      exact rows_apply x0 r ⟨k.val, k.isLt⟩
  exact congrArg₂ (fun b f => Finset.fold max b f (Finset.univ : Finset (Fin 1024))) ofBits_negInf hf

/-- The pooled `[256, 2]` matrix: column `0` is the first operand's column, -/
theorem pooled_col0 (a b : FVec Ideal S256x1 .f32) (c : Fin 256) :
    select (cmpi .eq (iota .tc S256x2 32 [1] iota_S256x2_d1_w32) (broadcast S256x2 0#32))
        (broadcastTo S256x2 a broadcasts_S256x1_S256x2) (broadcastTo S256x2 b broadcasts_S256x1_S256x2) (ix2 c (0 : Fin 2))
      = a (ix2 c (0 : Fin 1)) := by
  have hc : cmpi .eq (iota .tc S256x2 32 [1] iota_S256x2_d1_w32) (broadcast S256x2 0#32) (ix2 c (0 : Fin 2)) = 1#1 := by
    show Scalar.cmpi .eq (iota .tc S256x2 32 [1] iota_S256x2_d1_w32 (ix2 c (0 : Fin 2))) 0#32 = 1#1
    rw [iota_single_apply]
    rfl
  rw [select_apply, hc, select_one, broadcastTo_a1_ab_apply]

/-- and column `1` the second operand's. -/
theorem pooled_col1 (a b : FVec Ideal S256x1 .f32) (c : Fin 256) :
    select (cmpi .eq (iota .tc S256x2 32 [1] iota_S256x2_d1_w32) (broadcast S256x2 0#32))
        (broadcastTo S256x2 a broadcasts_S256x1_S256x2) (broadcastTo S256x2 b broadcasts_S256x1_S256x2) (ix2 c (1 : Fin 2))
      = b (ix2 c (0 : Fin 1)) := by
  have hc : cmpi .eq (iota .tc S256x2 32 [1] iota_S256x2_d1_w32) (broadcast S256x2 0#32) (ix2 c (1 : Fin 2)) = 0#1 := by
    show Scalar.cmpi .eq (iota .tc S256x2 32 [1] iota_S256x2_d1_w32 (ix2 c (1 : Fin 2))) 0#32 = 0#1
    rw [iota_single_apply]
    rfl
  rw [select_apply, hc, select_zero, broadcastTo_a1_ab_apply]

/-- The first product at an entry: row `r` of the first weight matrix against column `q` of the pooled matrix. -/
theorem first_product (w1 : FVec Ideal S16x256 .f32) (P : FVec Ideal S256x2 .f32) (r : Fin 16) (q : Fin 2) :
    matmul dot_S16x256_S256x2_S16x2_1_0_0_1_n_n none w1 P (constant (F := Ideal) S16x2 .f32 0x00000000#32) (ix2 r q)
      = ∑ c : Fin 256, w1 (ix2 r c) * P (ix2 c q) :=
  Cert.PlainProduct.matmul_zero_entry dot_S16x256_S256x2_S16x2_1_0_0_1_n_n rfl rfl
    (fun j k => rfl)
    (fun j k => dot_S16x256_S256x2_S16x2_1_0_0_1_n_n.lhsIdx_val_of_single rfl j k)
    (fun j k => dot_S16x256_S256x2_S16x2_1_0_0_1_n_n.rhsIdx_val_of_single rfl j k)
    (fun j k => rfl) w1 P r q

/-- The second product at an entry: row `j` of the second weight matrix against column `q` of the hidden matrix. -/
theorem second_product (w2 : FVec Ideal S256x16 .f32) (H : FVec Ideal S16x2 .f32) (j : Fin 256) (q : Fin 2) :
    matmul dot_S256x16_S16x2_S256x2_1_0_0_1_n_n none w2 H (constant (F := Ideal) S256x2 .f32 0x00000000#32) (ix2 j q)
      = ∑ r : Fin 16, w2 (ix2 j r) * H (ix2 r q) :=
  Cert.PlainProduct.matmul_zero_entry dot_S256x16_S16x2_S256x2_1_0_0_1_n_n rfl rfl
    (fun j k => rfl)
    (fun j k => dot_S256x16_S16x2_S256x2_1_0_0_1_n_n.lhsIdx_val_of_single rfl j k)
    (fun j k => dot_S256x16_S16x2_S256x2_1_0_0_1_n_n.rhsIdx_val_of_single rfl j k)
    (fun j k => rfl) w2 H j q

/-- The sum of the two columns of a `[256, 2]` matrix at row `j`. -/
theorem twoCols_apply (M : FVec Ideal S256x2 .f32) (j : Fin 256) :
    multiReduction .add [1] S256 M 0x00000000#32 reduces_S256x2_S256 (.inl rfl) rfl (ix1 j)
      = M (ix2 j (0 : Fin 2)) + M (ix2 j (1 : Fin 2)) := by
  refine (Ideal.multiReduction_add_single M _ reduces_S256x2_S256 _ _ (ix1 j)).trans ?_
  have e : ∀ q : Fin 2, M (reduces_S256x2_S256.lift (ix1 j) q) = M (ix2 j q) :=
    fun q => congrArg M (lift_ix1_axis1 reduces_S256x2_S256 j q)
  exact (Fin.sum_univ_two _).trans (congrArg₂ (· + ·) (e 0) (e 1))

/-- THE LAST PAYLOAD at channel `j`: the logistic function of the two branches' outputs added, each branch the second
    product of the clipped first product of its pooled column — the first column the sums scaled, the second the maxima. -/
theorem gateCol_apply (s mx : Vec Ideal S256x1 .f32) (w1 : Vec Ideal S16x256 .f32) (w2 : Vec Ideal S256x16 .f32)
    (u : Fin 1) (j : Fin 256) (v : Fin 1) :
    k0_pay6 s mx w1 w2 (ix3 u j v)
      = Ideal.logistic (Cert.Gate.outp w2 (Cert.Gate.hidden w1 (fun c => s (ix2 c (0 : Fin 1)) * Cert.Gate.scale)) j
          + Cert.Gate.outp w2 (Cert.Gate.hidden w1 (fun c => mx (ix2 c (0 : Fin 1)))) j) := by
  unfold k0_pay6
  dsimp only
  rw [shapeCast_ab_1ab_apply]
  show Ideal.logistic (shapeCast S256x1 _ shapeCasts_S256_S256x1 (ix2 j v)) = _
  rw [shapeCast_a_a1_apply, twoCols_apply, second_product, second_product]
  unfold Cert.Gate.outp Cert.Gate.hidden
  refine congrArg Ideal.logistic (congrArg₂ (· + ·) (Finset.sum_congr rfl fun r _ => congrArg (w2 (ix2 j r) * ·) ?_)
    (Finset.sum_congr rfl fun r _ => congrArg (w2 (ix2 j r) * ·) ?_))
  · rw [maximumf_apply, first_product, broadcast_apply]
    refine congrArg₂ max (Finset.sum_congr rfl fun c _ => congrArg (w1 (ix2 r c) * ·) ?_) Ideal.ofBits_zero_f32
    rw [pooled_col0, shapeCast_self, mulf_apply, broadcast_apply]
    rfl
  · rw [maximumf_apply, first_product, broadcast_apply]
    refine congrArg₂ max (Finset.sum_congr rfl fun c _ => congrArg (w1 (ix2 r c) * ·) ?_) Ideal.ofBits_zero_f32
    rw [pooled_col1, shapeCast_self]

/-- THE PAYLOAD AT AN INDEX: what a point stores at channel `j` of its output block, when its input block is image `n` of
    the array `X`, is the gate of image `n` at channel `j`. -/
theorem point_gate (x0 : Vec Ideal S1x256x1024 .f32) (w1 : Vec Ideal S16x256 .f32) (w2 : Vec Ideal S256x16 .f32)
    (X : S32x256x1024.Idx → EReal) (n : Fin 32) (hx : ∀ (r : Fin 256) (k : Fin 1024), x0 (ix3 (0 : Fin 1) r k) = X (ix3 n r k))
    (u : Fin 1) (j : Fin 256) (v : Fin 1) :
    k0_pay6 (k0_pay4 x0 (k0_pay1 (F := Ideal))) (k0_pay5 x0 (k0_pay2 (F := Ideal))) w1 w2 (ix3 u j v) = Cert.Gate.gate X w1 w2 n j := by
  have hs : (fun c : Fin 256 => k0_pay4 x0 (k0_pay1 (F := Ideal)) (ix2 c (0 : Fin 1)) * Cert.Gate.scale)
      = fun c => Cert.Gate.chanSum X n c * Cert.Gate.scale :=
    funext fun c => by rw [sumCol_apply]; unfold Cert.Gate.chanSum; simp only [hx]
  have hm : (fun c : Fin 256 => k0_pay5 x0 (k0_pay2 (F := Ideal)) (ix2 c (0 : Fin 1))) = Cert.Gate.chanMax X n :=
    funext fun c => by rw [maxCol_apply]; unfold Cert.Gate.chanMax; simp only [hx]
  rw [gateCol_apply, hs, hm]
  rfl

end Cert.ReferenceIdeal.RefValue

end
-- ==== Proof.RefBlocks.lean ====
/-
  From the points' blocks to the whole array.

  The grid has 32 points; point `t` reads image `t` of the `[32, 256, 1024]` input (block `(t, 0, 0)` of extents
  `[1, 256, 1024]`) and the two weight matrices whole, and writes back block `(t, 0, 0)` of extents `[1, 256, 1]` of the
  `[32, 256, 1]` output. What it writes is, at channel `j`, the gate of image `t`; so each written block is that block
  of the one array `(n, j, 0) ↦ gate n j`, the 32 blocks cover the array, and the array ends holding it.
-/
import proofs.«177346_g2000607127200456_pallasbulk_51_10_alg».proof.Proof.RefPiece
import proofs.«177346_g2000607127200456_pallasbulk_51_10_alg».proof.Proof.RefPayload
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Gen

variable (m : (ℓ : Loc nD τ sig) → Buf (Elt Ideal) ℓ)

/-- The printed index maps, decided over the grid: the input's and the output's block index is `(t, 0, 0)`, the weights'
    `(0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The input block at point `t` is image `t` of the array the region finds. -/
theorem iblk0_apply (c : Dev nD) (t : Fin cfg0.N) (n : Fin 32) (hn : n.val = t.val) (r : Fin 256) (k : Fin 1024) :
    (iblk m c 0 t : Vec Ideal S1x256x1024 .f32) (ix3 (0 : Fin 1) r k)
      = (V m c main_v0 : S32x256x1024.Idx → EReal) (ix3 n r k) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t 0 * 1 + 1 * 0 = n.val; rw [e0, hn]; omega
  | ⟨1, _⟩ => show win0_0.index t 1 * 256 + 1 * r.val = r.val; rw [e1]; omega
  | ⟨2, _⟩ => show win0_0.index t 2 * 1024 + 1 * k.val = k.val; rw [e2]; omega

/-- The first weight block at every point is the whole first weight matrix. -/
theorem iblk1_eq (c : Dev nD) (t : Fin cfg0.N) : (iblk m c 1 t : Vec Ideal S16x256 .f32) = V m c main_arg1 := by
  obtain ⟨-, -, -, e0, e1, -⟩ := idx_facts t
  funext y
  unfold iblk
  rw [View.read_apply]
  show V m c main_arg1 _ = V m c main_arg1 y
  congr 1
  funext a
  apply Fin.ext
  match a with
  | ⟨0, _⟩ => show win0_1.index t 0 * 16 + 1 * (y 0).val = (y 0).val; rw [e0]; omega
  | ⟨1, _⟩ => show win0_1.index t 1 * 256 + 1 * (y 1).val = (y 1).val; rw [e1]; omega

/-- The second weight block at every point is the whole second weight matrix. -/
theorem iblk2_eq (c : Dev nD) (t : Fin cfg0.N) : (iblk m c 2 t : Vec Ideal S256x16 .f32) = V m c main_arg2 := by
  obtain ⟨-, -, -, -, -, e0, e1, -⟩ := idx_facts t
  funext y
  unfold iblk
  rw [View.read_apply]
  show V m c main_arg2 _ = V m c main_arg2 y
  congr 1
  funext a
  apply Fin.ext
  match a with
  | ⟨0, _⟩ => show win0_2.index t 0 * 256 + 1 * (y 0).val = (y 0).val; rw [e0]; omega
  | ⟨1, _⟩ => show win0_2.index t 1 * 16 + 1 * (y 1).val = (y 1).val; rw [e1]; omega

/-- The gate of the arrays the region finds, as the `[32, 256, 1]` array. -/
abbrev G (c : Dev nD) : S32x256x1.Idx → EReal :=
  Cert.Gate.gate3 (V m c main_v0) (V m c main_arg1) (V m c main_arg2)

/-- WHAT POINT `t` WRITES BACK is block `t` of the gate array. -/
theorem flushed_eq (c : Dev nD) (t : Fin cfg0.N) :
    (dats m 0 c).flushed 3 t = ((cfg0.win 3).blk t).view.read (Elt Ideal) (G m c) := by
  have hN : cfg0.N = 32 := N_0
  have ht : t.val < 32 := hN ▸ t.isLt
  obtain ⟨-, -, -, -, -, -, -, e0, e1, e2⟩ := idx_facts t
  show (cfg0.win 3).cut (grid0.coords t) ((dats m 0 c).after 3 t) = _
  rw [after0_3]
  unfold outsAt0
  have hp := piece (F := Ideal) c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (hcond0_0 t) (hcond0_1 t) (iblk m c 0 t) (iblk m c 1 t) (iblk m c 2 t)
  rw [hp, iblk1_eq, iblk2_eq]
  funext y
  obtain ⟨u, j, v, rfl⟩ : ∃ (u : Fin 1) (j : Fin 256) (v : Fin 1), y = ix3 u j v := ⟨y 0, y 1, y 2, eq_ix3 y⟩
  rw [View.read_apply]
  refine (point_gate (iblk m c 0 t) (V m c main_arg1) (V m c main_arg2) (V m c main_v0) ⟨t.val, ht⟩
    (fun r k => iblk0_apply m c t ⟨t.val, ht⟩ rfl r k) u j v).trans ?_
  show Cert.Gate.gate (V m c main_v0) (V m c main_arg1) (V m c main_arg2) _ _
    = Cert.Gate.gate (V m c main_v0) (V m c main_arg1) (V m c main_arg2) _ _
  congr 1 <;> apply Fin.ext
  · show t.val = win0_3.index t 0 * 1 + 1 * u.val
    have hu : u.val = 0 := by omega
    rw [e0, hu]; omega
  · show j.val = win0_3.index t 1 * 256 + 1 * j.val
    rw [e1]; omega

/-- An index of the output array is in point `t`'s block iff each coordinate is in the block's range on its axis. -/
theorem mem_blk (t : Fin cfg0.N) (i : S32x256x1.Idx) :
    i ∈ ((cfg0.win 3).blk t).view.set ↔ ∀ a : Fin 3, win0_3.index t a * S1x256x1.size a ≤ (i a).val
      ∧ (i a).val < win0_3.index t a * S1x256x1.size a + S1x256x1.size a := by
  show i ∈ ((View.whole main_v1).slice (win0_3.rect t)).set ↔ _
  rw [View.set_slice_whole, Rect.mem_set_unit]
  exact Iff.rfl

/-- THE ARRAY after the run: the gate array (image `n`'s row is in point `n`'s block). -/
theorem final (c : Dev nD) : (dats m 0 c).arrAt 3 cfg0.N = G m c :=
  (dats m 0 c).arrAt_eq_of_cover 3 (G m c) (fun t _ => flushed_eq m c t) fun i => by
    have hN : cfg0.N = 32 := N_0
    have h0 : (i 0).val < 32 := (i 0).isLt
    have h1 : (i 1).val < 256 := (i 1).isLt
    have h2 : (i 2).val < 1 := (i 2).isLt
    have hlt : (i 0).val < cfg0.N := by omega
    refine ⟨⟨(i 0).val, hlt⟩, flush0_3 _, ?_⟩
    obtain ⟨-, -, -, -, -, -, -, e0', e1, e2⟩ := idx_facts ⟨(i 0).val, hlt⟩
    have e0 : win0_3.index ⟨(i 0).val, hlt⟩ 0 = (i 0).val := e0'
    rw [mem_blk]
    intro a
    match a with
    | ⟨0, _⟩ => show win0_3.index _ 0 * 1 ≤ (i 0).val ∧ (i 0).val < win0_3.index _ 0 * 1 + 1; rw [e0]; omega
    | ⟨1, _⟩ => show win0_3.index _ 1 * 256 ≤ (i 1).val ∧ (i 1).val < win0_3.index _ 1 * 256 + 256; rw [e1]; omega
    | ⟨2, _⟩ => show win0_3.index _ 2 * 1 ≤ (i 2).val ∧ (i 2).val < win0_3.index _ 2 * 1 + 1; rw [e2]; omega

end Cert.ReferenceIdeal.RefValue

end
-- ==== Proof.RefRun.lean ====
/-
  The reference's run, read: its result array is the channel gate of its arguments.

  The program reshapes the image array to `[32, 256, 1024]`, runs the one gridded region, whose output array ends holding
  the gate as a `[32, 256, 1]` array, and reshapes that to `[32, 256, 1, 1]`: a reshape that appends a unit axis reads
  `(n, j, 0, 0)` at `(n, j, 0)`. The three arguments end as launched.
-/
import proofs.«177346_g2000607127200456_pallasbulk_51_10_alg».proof.Proof.RefBlocks
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Gen

variable (m : (ℓ : Loc nD τ sig) → Buf (Elt Ideal) ℓ)

section
open Cert.RefLayout
variable (ρ : Dev nD → PrngReg)

/-- The array the region finds as its first operand is the image array reshaped. -/
theorem V_main_v0 (c : Dev nD) : (V m c main_v0 : S32x256x1024.Idx → EReal)
    = shapeCast S32x256x1024 (m ((c.tc : Thread nD τ).loc main_arg0)) Facts₀.shapeCasts_S32x256x32x32_S32x256x1024 := by
  show StableHlo.after hostOps0 (fun b => m (c, b)) (Proc.devRef .tc main_v0) = _
  after_results
  rfl

/-- The result array after the reshape that follows the region: the gate as a `[32, 256, 1, 1]` array. -/
theorem tail_eq (c : Dev nD) :
    Pipeline.afterTail₀ cfgs (dats m) 0 (V0 m) [hostOps1] c main_v2
      = Cert.Gate.gate4 (shapeCast S32x256x1024 (m ((c.tc : Thread nD τ).loc main_arg0)) Facts₀.shapeCasts_S32x256x32x32_S32x256x1024)
          (m ((c.tc : Thread nD τ).loc main_arg1)) (m ((c.tc : Thread nD τ).loc main_arg2)) := by
  have hw : Pipeline.withArrays spec0 c (V0 m c) (fun w => (dats m 0 c).arrAt w cfg0.N) (Proc.devRef .tc main_v1) = G m c :=
    (Pipeline.withArrays_arr spec0 launch0.win.arr_inj c _ _ 3).trans (final m c)
  unfold Pipeline.afterTail₀
  show StableHlo.after hostOps1 _ (Proc.devRef .tc main_v2) = _
  after_results
  funext i
  obtain ⟨n, j, u, v, rfl⟩ : ∃ (n : Fin 32) (j : Fin 256) (u v : Fin 1), i = ix4 n j u v := ⟨i 0, i 1, i 2, i 3, eq_ix4 i⟩
  show shapeCast S32x256x1x1 (Pipeline.withArrays spec0 c (V0 m c) (fun w => (dats m 0 c).arrAt w cfg0.N) (Proc.devRef .tc main_v1))
    shapeCasts_S32x256x1_S32x256x1x1 (ix4 n j u v) = _
  refine (shapeCast_ab1_ab11_apply _ _ n j u v).trans ?_
  refine (congrFun hw (ix3 n j (0 : Fin 1))).trans ?_
  show Cert.Gate.gate (V m c main_v0) (V m c main_arg1) (V m c main_arg2) n j = Cert.Gate.gate _ _ _ n j
  rw [V_main_v0, V_main_arg1, V_main_arg2]

/-- THE RUN, READ. From any memory with zero counters every weakly fair execution of the program terminates with the
    result array at the gate of the argument arrays (the first read as `[32, 256, 1024]`) and the arguments as launched. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread _ Cert.ReferenceIdeal.τ).loc Cert.ReferenceIdeal.main_v2)
          = Cert.Gate.gate4 (shapeCast Cert.ReferenceIdeal.S32x256x1024 (m ((c.tc : Thread _ Cert.ReferenceIdeal.τ).loc Cert.ReferenceIdeal.main_arg0)) Cert.ReferenceIdeal.Facts₀.shapeCasts_S32x256x32x32_S32x256x1024)
              (m ((c.tc : Thread _ Cert.ReferenceIdeal.τ).loc Cert.ReferenceIdeal.main_arg1)) (m ((c.tc : Thread _ Cert.ReferenceIdeal.τ).loc Cert.ReferenceIdeal.main_arg2))
      ∧ r.2.mem ((c.tc : Thread _ Cert.ReferenceIdeal.τ).loc Cert.ReferenceIdeal.main_arg0) = m ((c.tc : Thread _ Cert.ReferenceIdeal.τ).loc Cert.ReferenceIdeal.main_arg0)
      ∧ r.2.mem ((c.tc : Thread _ Cert.ReferenceIdeal.τ).loc Cert.ReferenceIdeal.main_arg1) = m ((c.tc : Thread _ Cert.ReferenceIdeal.τ).loc Cert.ReferenceIdeal.main_arg1)
      ∧ r.2.mem ((c.tc : Thread _ Cert.ReferenceIdeal.τ).loc Cert.ReferenceIdeal.main_arg2) = m ((c.tc : Thread _ Cert.ReferenceIdeal.τ).loc Cert.ReferenceIdeal.main_arg2)) :=
  (θ_run defs _ _).mono (fun r h c => ⟨
      ((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)
end

end Cert.ReferenceIdeal.RefValue

end
-- ==== Proof.lean ====
/-
  A channel-attention gate, computed two ways.

  Both programs take an image batch x of shape [32, 256, 32, 32] and two weight matrices w1 [16, 256], w2 [256, 16], read
  the batch as 32 × 256 rows of 1024 pixels, pool every row to its mean and its maximum, push both pooled vectors through
  the same two-layer network (w1, clip at 0, w2), add the two outputs and apply the logistic function.

  The kernel does it in two calls: a pooling call over four slabs of eight images that reads every row as two halves of
  512 pixels — its two input windows on the one reshaped array — and writes the row sums and row maxima; then one gate
  call that stacks the 32 mean rows over the 32 maximum rows, multiplies by w1ᵀ and w2ᵀ, and adds the upper and lower
  halves. The reference does it in one call, one image per grid point, with the pooled pair as the two columns of a
  [256, 2] matrix multiplied from the left by w1 and w2.

  On the extended reals the two agree entry by entry: a row's sum is the sum of its halves' sums and its maximum the
  larger of its halves' maxima; the products differ only in the order of their two factors and the layout of the
  matrices; adding 0 and taking the maximum with −∞ change nothing. None of this needs the entries to be finite, so
  the precondition is never opened. The ideal pass rewrote nothing in the kernel, so there is nothing to preserve.
-/
import proofs.«177346_g2000607127200456_pallasbulk_51_10_alg».proof.Defs
import proofs.«177346_g2000607127200456_pallasbulk_51_10_alg».proof.Proof.Gen.Kernel
import proofs.«177346_g2000607127200456_pallasbulk_51_10_alg».proof.Proof.Gen.KernelIdeal
import proofs.«177346_g2000607127200456_pallasbulk_51_10_alg».proof.Proof.Gen.ReferenceIdeal
import proofs.«177346_g2000607127200456_pallasbulk_51_10_alg».proof.Proof.Gen.ReferenceIdeal.Frame
import proofs.«177346_g2000607127200456_pallasbulk_51_10_alg».proof.Proof.Gen.Pre_finite_inputs
import proofs.«177346_g2000607127200456_pallasbulk_51_10_alg».proof.Proof.KRun
import proofs.«177346_g2000607127200456_pallasbulk_51_10_alg».proof.Proof.KIValue
import proofs.«177346_g2000607127200456_pallasbulk_51_10_alg».proof.Proof.RefRun
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel (hKernel := Cert.Kernel.Gen.facts) (hPre_finite_inputs := Cert.Pre_finite_inputs.Gen.facts) :=
  fun m ρ _ => Cert.Kernel.Hand.frame m ρ

/-- So does the idealized kernel, -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- and the idealized reference. -/
theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- From memories that agree on the arguments both idealized programs end with the gate of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.run_value m ρ, ?_⟩
  refine (θ_run (Cert.ReferenceIdeal.defs (F := Ideal)) _ _).mono (fun r h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
